-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x32 : Shape := ⟨2, ![100000, 32]⟩
abbrev S10000x128 : Shape := ⟨2, ![10000, 128]⟩
abbrev S10000x1 : Shape := ⟨2, ![10000, 1]⟩
abbrev S10000x32 : Shape := ⟨2, ![10000, 32]⟩
abbrev S3300000x32 : Shape := ⟨2, ![3300000, 32]⟩
abbrev S1x32 : Shape := ⟨2, ![1, 32]⟩
abbrev S1x1 : Shape := ⟨2, ![1, 1]⟩

abbrev nBuf : Space → Nat
  | .hbm => 77
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x32, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000x32, .f32⟩
  | .hbm, ⟨40, _⟩ => ⟨S_, .f32⟩
  | .hbm, ⟨41, _⟩ => ⟨S100000x32, .f32⟩
  | .hbm, ⟨42, _⟩ => ⟨S3300000x1, .i32⟩
  | .hbm, ⟨43, _⟩ => ⟨S100000x32, .f32⟩
  | .hbm, ⟨44, _⟩ => ⟨S100000x32, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x32, .f32⟩
  | .hbm, ⟨54, _⟩ => ⟨S_, .f32⟩
  | .hbm, ⟨55, _⟩ => ⟨S100000x32, .f32⟩
  | .hbm, ⟨56, _⟩ => ⟨S3300000x1, .i32⟩
  | .hbm, ⟨57, _⟩ => ⟨S100000x32, .f32⟩
  | .hbm, ⟨58, _⟩ => ⟨S100000x1, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000x1, .f32⟩
  | .hbm, ⟨68, _⟩ => ⟨S_, .f32⟩
  | .hbm, ⟨69, _⟩ => ⟨S100000x1, .f32⟩
  | .hbm, ⟨70, _⟩ => ⟨S3300000x1, .i32⟩
  | .hbm, ⟨71, _⟩ => ⟨S100000x1, .f32⟩
  | .hbm, ⟨72, _⟩ => ⟨S100000x1, .f32⟩
  | .hbm, ⟨73, _⟩ => ⟨S1x1, .f32⟩
  | .hbm, ⟨74, _⟩ => ⟨S100000x1, .f32⟩
  | .hbm, ⟨75, _⟩ => ⟨S100000x1, .f32⟩
  | .hbm, ⟨76, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x1, .f32⟩
  | .local _ .vmem, ⟨4, _⟩ => ⟨S10000x1, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S32, .f32⟩
  | .local _ .vmem, ⟨12, _⟩ => ⟨S32x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x1, .f32⟩
  | .local _ .vmem, ⟨18, _⟩ => ⟨S10000x1, .f32⟩
  | .local _ .vmem, ⟨19, _⟩ => ⟨S32, .f32⟩
  | .local _ .vmem, ⟨20, _⟩ => ⟨S32x1, .f32⟩
  | .local _ .vmem, ⟨21, _⟩ => ⟨S10000x1, .f32⟩
  | .local _ .vmem, ⟨22, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  shapeCasts_S10000x32_S10000x32 : S10000x32.ShapeCasts S10000x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x1, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x32, .f32⟩
  | .hbm, ⟨81, _⟩ => ⟨S3300000x1, .f32⟩
  | .hbm, ⟨82, _⟩ => ⟨S3300000x32, .f32⟩
  | .hbm, ⟨83, _⟩ => ⟨S3300000x32, .f32⟩
  | .hbm, ⟨84, _⟩ => ⟨S_, .f32⟩
  | .hbm, ⟨85, _⟩ => ⟨S100000x32, .f32⟩
  | .hbm, ⟨86, _⟩ => ⟨S3300000x1, .i32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | .hbm, ⟨91, _⟩ => ⟨S_, .f32⟩
  | .hbm, ⟨92, _⟩ => ⟨S100000x32, .f32⟩
  | .hbm, ⟨93, _⟩ => ⟨S100000x32, .f32⟩
  | .hbm, ⟨94, _⟩ => ⟨S100000x1, .f32⟩
  | .hbm, ⟨95, _⟩ => ⟨S_, .i32⟩
  | .hbm, ⟨96, _⟩ => ⟨S3300000, .i32⟩
  | .hbm, ⟨97, _⟩ => ⟨S3300000, .i1⟩
  | .hbm, ⟨98, _⟩ => ⟨S_, .i32⟩
  | .hbm, ⟨99, _⟩ => ⟨S3300000, .i32⟩
  | .hbm, ⟨100, _⟩ => ⟨S3300000, .i32⟩
  | .hbm, ⟨101, _⟩ => ⟨S3300000, .i32⟩
  | .hbm, ⟨102, _⟩ => ⟨S3300000x1, .i32⟩
  | .hbm, ⟨103, _⟩ => ⟨S3300000x1, .f32⟩
  | .hbm, ⟨104, _⟩ => ⟨S3300000x1, .f32⟩
  | .hbm, ⟨105, _⟩ => ⟨S3300000x1, .f32⟩
  | .hbm, ⟨106, _⟩ => ⟨S_, .f32⟩
  | .hbm, ⟨107, _⟩ => ⟨S100000x1, .f32⟩
  | .hbm, ⟨108, _⟩ => ⟨S3300000x1, .i32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | .hbm, ⟨113, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel program's run, with its result named.

  @main is nine segments: stretches of host operations around three kernel regions. The buffer contents at each
  segment boundary are a fold from the launch memory (`Gen.W0 … Gen.W9`: a stretch applies its operations, a region
  replaces its arrays by what its grid's write-backs leave). Every weakly fair execution terminates, nothing
  faulting, and every final state holds, in each unscoped buffer, the last boundary's contents: in particular the
  result buffer holds `Gen.W9` at the result's reference and every argument array is as launched.
-/
import proofs.«107657_j27367531610530_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this one, which takes unfolding
-- plain definitions in a metavariable's type
set_option backward.isDefEq.respectTransparency.types false in
/-- The run with the result named: the final state's result buffer holds the last boundary's contents, the argument
    arrays are as launched. The segments, their chain and the launch are the frame's; only the reading of the final
    state asks for one more buffer. -/
theorem run_value : θ_run defs (onTc (τ := τ) (main (F := F))) ⟨m, fun _ => 0, ρ⟩ (fun r => ∀ c : Dev nD,
      r.2.mem ((c.tc : Thread nD τ).loc main_v53) = W9 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v53 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.HostKeep.lean ====
/-
  Buffers that a stretch of the program does not write keep their contents across it.

  The idealized kernel program is nine segments (host stretches and three kernel regions); `Gen.Wk` is what the buffers
  hold at boundary `k`. A host stretch changes only the references its operations write; a region changes only its
  output array and leaves every input array as it found it. So an argument array, the two edge columns (written once,
  before the first region) and the column of node factors (written once, at the first region's entry) hold at a later
  boundary what they held at an earlier one.
-/
import proofs.«107657_j27367531610530_2_alg».proof.Proof.Gen.KernelIdeal.Frame

set_option maxRecDepth 16384

noncomputable section

namespace Cert.KernelIdeal.HostKeep

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem keep_main_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_arg2_3_0 (c : Dev nD) : W3 m ρ c (Proc.devRef .tc main_arg2) = W0 m ρ c (Proc.devRef .tc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_arg3_5_0 (c : Dev nD) : W5 m ρ c (Proc.devRef .tc main_arg3) = W0 m ρ c (Proc.devRef .tc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_arg4_5_0 (c : Dev nD) : W5 m ρ c (Proc.devRef .tc main_arg4) = W0 m ρ c (Proc.devRef .tc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_arg5_7_0 (c : Dev nD) : W7 m ρ c (Proc.devRef .tc main_arg5) = W0 m ρ c (Proc.devRef .tc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_arg6_7_0 (c : Dev nD) : W7 m ρ c (Proc.devRef .tc main_arg6) = W0 m ρ c (Proc.devRef .tc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_arg7_8_0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_v6_4_1 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_v3_6_4 (c : Dev nD) : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_v6_6_4 (c : Dev nD) : W6 m ρ c (Proc.devRef .tc main_v6) = W4 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_v3_8_6 (c : Dev nD) : W8 m ρ c (Proc.devRef .tc main_v3) = W6 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_v6_8_6 (c : Dev nD) : W8 m ρ c (Proc.devRef .tc main_v6) = W6 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))

theorem keep_main_v15_5_3 (c : Dev nD) : W5 m ρ c (Proc.devRef .tc main_v15) = W3 m ρ c (Proc.devRef .tc main_v15) :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W3 m ρ c (Proc.devRef .tc main_v15) := (W4_arr m ρ c 2).trans (((dat0 (V3 m ρ) c).arrAt_in 2 rfl _).trans (A_eq0 (V3 m ρ) c 2))

theorem keep_main_v15_7_5 (c : Dev nD) : W7 m ρ c (Proc.devRef .tc main_v15) = W5 m ρ c (Proc.devRef .tc main_v15) :=
  calc W7 m ρ c (Proc.devRef .tc main_v15)
    _ = W6 m ρ c (Proc.devRef .tc main_v15) := StableHlo.after_of_forall_not_mem (b := Proc.devRef .tc main_v15) _ _ (List.forall_iff_forall_mem.mp (by
          simp only [hostOps2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W5 m ρ c (Proc.devRef .tc main_v15) := (W6_arr m ρ c 1).trans (((dat1 (V5 m ρ) c).arrAt_in 1 rfl _).trans (A_eq1 (V5 m ρ) c 1))

theorem keep_main_v15_8_7 (c : Dev nD) : W8 m ρ c (Proc.devRef .tc main_v15) = W7 m ρ c (Proc.devRef .tc main_v15) :=
  calc W8 m ρ c (Proc.devRef .tc main_v15)
    _ = W7 m ρ c (Proc.devRef .tc main_v15) := (W8_arr m ρ c 1).trans (((dat2 (V7 m ρ) c).arrAt_in 1 rfl _).trans (A_eq2 (V7 m ρ) c 1))

end Cert.KernelIdeal.HostKeep

end
-- ==== Proof.LibSegment.lean ====
/-
  Row gathers and row scatter-adds with ONE index column, read at an index.

  The host programs index a table by a column of E signed words: `idx : [E, 1]`.
  * A gather of rows of `x : [N, K]` (or of entries of `x : [N]`) reads, at row `e`, the table row whose number
    is the word `idx[e, 0]` read signed and clamped into `[0, N - 1]` (`clampRow`).
  * An accumulating scatter of the rows of `upd : [E, K]` (or of the entries of `upd : [E]`) into `x` adds row `e`
    to the table row whose number is `idx[e, 0]` read signed, NOT clamped: a word outside `[0, N)` adds nothing.
    At the ideal instance the result at `(n, k)` is `x (n, k)` plus the sum, over every `e`, of
    `upd (e, k)` if `idx[e, 0] = n` and `0` otherwise.
  Everything is generic in the extents `N`, `E`, `K` and the word width; a program's printed dimension record
  is identified with the record here by `rfl`.
-/
import Idealize.ShloMosaic.Lib.ValueIdx
import Idealize.ShloMosaic.PureOps.Ideal.Laws

noncomputable section

open scoped BigOperators

namespace Idealize.ShloMosaic.SegmentIdx

open Idealize.ShloMosaic Idealize.ShloMosaic.ValueIdx

/-- A signed word clamped to a row number of a table with `N` rows: `min (max v 0) (N - 1)`. -/
def clampRow (N : Nat) (hN : 0 < N) {w : Nat} (v : BitVec w) : Fin N := ⟨min v.toInt.toNat (N - 1), by omega⟩

/-- A signed word that is a row number is its own clamp. -/
theorem clampRow_of_eq {N : Nat} (hN : 0 < N) {w : Nat} (v : BitVec w) (n : Fin N) (h : v.toInt = (n.val : ℤ)) :
    clampRow N hN v = n := by
  apply Fin.ext
  show min v.toInt.toNat (N - 1) = n.val
  rw [h, Int.toNat_natCast]
  have := n.isLt
  omega

/-- Rank-1 indices are their coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Gathers -/

section Gather
variable {α : Type}

/-- `x[idx]` for a table of rows: operand `[N, K]`, start indices `[E, 1]`, result `[E, K]`. -/
abbrev gatherRowsDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Row `e` of the gather is the table's row `clampRow idx[e, 0]`. -/
theorem gatherRows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherRowsDims N E K wf) x idx (ix2 e k) = x (ix2 (clampRow N hN (idx (ix2 e 0))) k) := by
  unfold Host.gather
  congr 1
  funext a
  refine Fin.ext ?_
  match a with
  | ⟨0, _⟩ =>
    show (gatherRowsDims N E K wf).start (ix2 e k) idx 0 + (gatherRowsDims N E K wf).batchCoord (ix2 e k) 0
      + (gatherRowsDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E K wf).startIndexMap from List.mem_singleton.mpr rfl)]
    have hsi : (gatherRowsDims N E K wf).siIdx (ix2 e k) ⟨List.idxOf (0 : Fin 2) (gatherRowsDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowsDims N E K wf).start (ix2 e k) idx 1 + (gatherRowsDims N E K wf).batchCoord (ix2 e k) 1
      + (gatherRowsDims N E K wf).offCoord (ix2 e k) 1 = _
    rw [GatherDims.batchCoord_eq_zero _ _ _ List.not_mem_nil]
    have hs : (gatherRowsDims N E K wf).start (ix2 e k) idx 1 = 0 := by
      unfold GatherDims.start
      rw [dif_neg (fun h => Nat.one_ne_zero (congrArg Fin.val (List.mem_singleton.mp h)))]
    rw [hs]
    simp only [Nat.add_zero, Nat.zero_add]
    rfl

/-- `x[idx]` for a flat table: operand `[N]`, start indices `[E, 1]`, result `[E]`. -/
abbrev gatherFlatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table's entry `clampRow idx[e, 0]`. -/
theorem gatherFlat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherFlatDims N E wf) x idx (ix1 e) = x (ix1 (clampRow N hN (idx (ix2 e 0)))) := by
  unfold Host.gather
  congr 1
  funext a
  obtain rfl : a = 0 := Subsingleton.elim _ _
  refine Fin.ext ?_
  show (gatherFlatDims N E wf).start (ix1 e) idx 0 + (gatherFlatDims N E wf).batchCoord (ix1 e) 0
    + (gatherFlatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherFlatDims N E wf).startIndexMap from List.mem_singleton.mpr rfl)]
  have hsi : (gatherFlatDims N E wf).siIdx (ix1 e) ⟨List.idxOf (0 : Fin 1) (gatherFlatDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Accumulating scatters, at the ideal instance -/

section Scatter

/-- `x.at[idx].add(upd)` for a table of rows: operand `[N, K]`, scatter indices `[E, 1]`, updates `[E, K]`. -/
abbrev scatterRowsDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N E K w : Nat}

/-- Update `(e, k')` lands on `(n, k)` exactly when the word `idx[e, 0]`, read signed, is `n` and `k' = k`. -/
theorem scatterRows_lands (wf : ScatterDims.WF ⟨2, ![N, K]⟩ ⟨2, ![E, 1]⟩ ⟨2, ![E, K]⟩ [1] [0] [0] 1)
    (idx : IVec ⟨2, ![E, 1]⟩ w) (e : Fin E) (k' : Fin K) (n : Fin N) (k : Fin K) :
    (scatterRowsDims N E K wf).resultIdx? (ix2 e k') idx = some (ix2 n k)
      ↔ ((idx (ix2 e 0)).toInt = (n.val : ℤ) ∧ k' = k) := by
  have hs0 : (scatterRowsDims N E K wf).start (ix2 e k') idx 0 = (idx (ix2 e 0)).toInt := by
    unfold ScatterDims.start
    rw [dif_pos (show (0 : Fin 2) ∈ (scatterRowsDims N E K wf).scatterDimsToOperandDims from List.mem_singleton.mpr rfl)]
    have hsi : (scatterRowsDims N E K wf).siIdx (ix2 e k') ⟨List.idxOf (0 : Fin 2) (scatterRowsDims N E K wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (scatterRowsDims N E K wf).start (ix2 e k') idx 1 = 0 := by
    unfold ScatterDims.start
    rw [dif_neg (fun h => Nat.one_ne_zero (congrArg Fin.val (List.mem_singleton.mp h)))]
  have hw0 : (scatterRowsDims N E K wf).window (ix2 e k') 0 = 0 := rfl
  have hw1 : (scatterRowsDims N E K wf).window (ix2 e k') 1 = k'.val := rfl
  unfold ScatterDims.resultIdx?
  constructor
  · intro h
    split at h
    · rename_i hin
      have hf := Option.some.inj h
      have h0 := congrArg (fun f => (f 0).val) hf
      have h1 := congrArg (fun f => (f 1).val) hf
      simp only [hs0, hs1, hw0, hw1] at h0 h1
      have hin0 := hin 0
      rw [hs0, hw0] at hin0
      refine ⟨?_, Fin.ext ?_⟩
      · change ((idx (ix2 e 0)).toInt + ((0 : ℕ) : ℤ)).toNat = n.val at h0
        omega
      · change ((0 : ℤ) + (k'.val : ℤ)).toNat = k.val at h1
        omega
    · exact absurd h (by simp)
  · rintro ⟨hv, rfl⟩
    have hin0 : 0 ≤ (scatterRowsDims N E K wf).start (ix2 e k') idx 0 + (scatterRowsDims N E K wf).window (ix2 e k') 0
        ∧ (scatterRowsDims N E K wf).start (ix2 e k') idx 0 + (scatterRowsDims N E K wf).window (ix2 e k') 0
          < (⟨2, ![N, K]⟩ : Shape).size 0 := by
      rw [hs0, hw0, hv]
      have := n.isLt
      constructor
      · omega
      · show ((n.val : ℤ) + ((0 : ℕ) : ℤ)) < (N : ℤ)
        omega
    have hin1 : 0 ≤ (scatterRowsDims N E K wf).start (ix2 e k') idx 1 + (scatterRowsDims N E K wf).window (ix2 e k') 1
        ∧ (scatterRowsDims N E K wf).start (ix2 e k') idx 1 + (scatterRowsDims N E K wf).window (ix2 e k') 1
          < (⟨2, ![N, K]⟩ : Shape).size 1 := by
      rw [hs1, hw1]
      have := k'.isLt
      constructor
      · omega
      · show ((0 : ℤ) + (k'.val : ℤ)) < (K : ℤ)
        omega
    have hin : ∀ a, 0 ≤ (scatterRowsDims N E K wf).start (ix2 e k') idx a + (scatterRowsDims N E K wf).window (ix2 e k') a
        ∧ (scatterRowsDims N E K wf).start (ix2 e k') idx a + (scatterRowsDims N E K wf).window (ix2 e k') a
          < (⟨2, ![N, K]⟩ : Shape).size a := fun a =>
      match a with
      | ⟨0, _⟩ => hin0
      | ⟨1, _⟩ => hin1
    rw [dif_pos hin]
    refine congrArg some (funext fun a => Fin.ext ?_)
    match a with
    | ⟨0, _⟩ =>
      show ((scatterRowsDims N E K wf).start (ix2 e k') idx 0 + (scatterRowsDims N E K wf).window (ix2 e k') 0).toNat = n.val
      rw [hs0, hw0, hv]
      omega
    | ⟨1, _⟩ =>
      show ((scatterRowsDims N E K wf).start (ix2 e k') idx 1 + (scatterRowsDims N E K wf).window (ix2 e k') 1).toNat = k'.val
      rw [hs1, hw1]
      omega

/-- THE ROW SCATTER-ADD AT AN ENTRY: `x (n, k)` plus, over every update row `e`, `upd (e, k)` when the word
    `idx[e, 0]` is `n`. -/
theorem scatterAddRows_apply {φ : FTy} (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ)
    (n : Fin N) (k : Fin K) :
    Host.scatterAdd (F := Ideal) (scatterRowsDims N E K wf) x idx upd (ix2 n k)
      = x (ix2 n k) + ∑ e : Fin E, if (idx (ix2 e 0)).toInt = (n.val : ℤ) then upd (ix2 e k) else 0 := by
  show x (ix2 n k) + ∑ j ∈ Finset.univ.filter
      (fun j => (scatterRowsDims N E K wf).resultIdx? j idx = some (ix2 n k)), upd j = _
  congr 1
  rw [Finset.sum_filter, sum_idx2]
  refine Finset.sum_congr rfl fun e _ => ?_
  simp only [scatterRows_lands wf idx e _ n k]
  by_cases hv : (idx (ix2 e 0)).toInt = (n.val : ℤ)
  · simp only [hv, true_and, if_true]
    rw [Finset.sum_ite_eq' Finset.univ k (fun k' => upd (ix2 e k'))]
    simp
  · simp only [hv, false_and, if_false]
    exact Finset.sum_const_zero

/-- `x.at[idx].add(upd)` for a flat table: operand `[N]`, scatter indices `[E, 1]`, updates `[E]`. -/
abbrev scatterFlatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `n` exactly when the word `idx[e, 0]`, read signed, is `n`. -/
theorem scatterFlat_lands (wf : ScatterDims.WF ⟨1, ![N]⟩ ⟨2, ![E, 1]⟩ ⟨1, ![E]⟩ [] [0] [0] 1)
    (idx : IVec ⟨2, ![E, 1]⟩ w) (e : Fin E) (n : Fin N) :
    (scatterFlatDims N E wf).resultIdx? (ix1 e) idx = some (ix1 n) ↔ (idx (ix2 e 0)).toInt = (n.val : ℤ) := by
  have hs0 : (scatterFlatDims N E wf).start (ix1 e) idx 0 = (idx (ix2 e 0)).toInt := by
    unfold ScatterDims.start
    rw [dif_pos (show (0 : Fin 1) ∈ (scatterFlatDims N E wf).scatterDimsToOperandDims from List.mem_singleton.mpr rfl)]
    have hsi : (scatterFlatDims N E wf).siIdx (ix1 e) ⟨List.idxOf (0 : Fin 1) (scatterFlatDims N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (scatterFlatDims N E wf).window (ix1 e) 0 = 0 := rfl
  unfold ScatterDims.resultIdx?
  constructor
  · intro h
    split at h
    · rename_i hin
      have hf := Option.some.inj h
      have h0 := congrArg (fun f => (f 0).val) hf
      simp only [hs0, hw0] at h0
      have hin0 := hin 0
      rw [hs0, hw0] at hin0
      change ((idx (ix2 e 0)).toInt + ((0 : ℕ) : ℤ)).toNat = n.val at h0
      omega
    · exact absurd h (by simp)
  · intro hv
    have hin0 : 0 ≤ (scatterFlatDims N E wf).start (ix1 e) idx 0 + (scatterFlatDims N E wf).window (ix1 e) 0
        ∧ (scatterFlatDims N E wf).start (ix1 e) idx 0 + (scatterFlatDims N E wf).window (ix1 e) 0
          < (⟨1, ![N]⟩ : Shape).size 0 := by
      rw [hs0, hw0, hv]
      have := n.isLt
      constructor
      · omega
      · show ((n.val : ℤ) + ((0 : ℕ) : ℤ)) < (N : ℤ)
        omega
    have hin : ∀ a, 0 ≤ (scatterFlatDims N E wf).start (ix1 e) idx a + (scatterFlatDims N E wf).window (ix1 e) a
        ∧ (scatterFlatDims N E wf).start (ix1 e) idx a + (scatterFlatDims N E wf).window (ix1 e) a
          < (⟨1, ![N]⟩ : Shape).size a := fun a =>
      match a with
      | ⟨0, _⟩ => hin0
    rw [dif_pos hin]
    refine congrArg some (funext fun a => Fin.ext ?_)
    match a with
    | ⟨0, _⟩ =>
      show ((scatterFlatDims N E wf).start (ix1 e) idx 0 + (scatterFlatDims N E wf).window (ix1 e) 0).toNat = n.val
      rw [hs0, hw0, hv]
      omega

/-- THE FLAT SCATTER-ADD AT AN ENTRY: `x n` plus, over every update `e`, `upd e` when the word `idx[e, 0]` is `n`. -/
theorem scatterAddFlat_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (scatterFlatDims N E wf) x idx upd (ix1 n)
      = x (ix1 n) + ∑ e : Fin E, if (idx (ix2 e 0)).toInt = (n.val : ℤ) then upd (ix1 e) else 0 := by
  show x (ix1 n) + ∑ j ∈ Finset.univ.filter
      (fun j => (scatterFlatDims N E wf).resultIdx? j idx = some (ix1 n)), upd j = _
  congr 1
  rw [Finset.sum_filter, sum_idx1]
  refine Finset.sum_congr rfl fun e _ => ?_
  simp only [scatterFlat_lands wf idx e n]

end Scatter

end Idealize.ShloMosaic.SegmentIdx

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«107657_j27367531610530_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibGcnNet.lean ====
/-
  A three-layer graph convolution network over the extended reals, written two ways.

  Nodes `0 … N-1` carry feature rows; `E` edges are given by index columns of signed words. A source column `sc` is
  read as a gather reads it (the word clamped into `[0, N-1]`); a target column is read as a scatter reads it (`tc`: a
  word that is no row number adds nothing) and, by the reference only, as a gather reads it (`dc`). `δ` is a node
  factor (the inverse square root of the in-degree).

  * `aggr`: the rows the source column names are gathered and summed into the rows the target column names.
  * `aggrN`: the same with row `e` first multiplied by `δ (src e) * δ (dst e)`, the symmetric normalisation per EDGE.
  * `scaleRows h d`: every row of `h` times its node's factor, the factors as a column `[N, 1]`.
  * `lin x W d` is `(x · W)` with every row scaled; `act a d b` is `max (a scaled + b, 0)`; `layer a d b W` is
    `lin (act a d b) W d`: what each of the three kernels computes for the whole array.
  * `kernelNet` scales per NODE, before the gather and after the scatter; `refNet` scales per edge.
  The two nets are equal whenever every node factor is nonnegative and finite (`net_eq`, in LibGcnNetAlgebra.lean): a
  nonnegative finite factor distributes over a finite sum of extended reals.

  Generic in the extents: `N` nodes, `E` edges, `A` input features, `B` hidden features; the last layer has one column.
-/
import Idealize.ShloMosaic.Lib.ValueIdx
import Idealize.ShloMosaic.PureOps.Ideal.Laws
import proofs.«107657_j27367531610530_2_alg».proof.Proof.LibSegment
import proofs.«107657_j27367531610530_2_alg».proof.Proof.LibDotGeneralPlain

noncomputable section

open scoped BigOperators

namespace Cert.Net

open Idealize.ShloMosaic Idealize.ShloMosaic.ValueIdx Idealize.ShloMosaic.SegmentIdx Cert.LibDotGeneralPlain

variable {N E A B K : ℕ}

/-- Every row of `h` times its node's factor, the factors given as a column. -/
def scaleRows (h : FVec Ideal ⟨2, ![N, K]⟩ .f32) (d : FVec Ideal ⟨2, ![N, 1]⟩ .f32) : FVec Ideal ⟨2, ![N, K]⟩ .f32 :=
  fun i => h i * d (ix2 (i 0) (0 : Fin 1))

theorem scaleRows_apply (h : FVec Ideal ⟨2, ![N, K]⟩ .f32) (d : FVec Ideal ⟨2, ![N, 1]⟩ .f32) (p : Fin N) (q : Fin K) :
    scaleRows h d (ix2 p q) = h (ix2 p q) * d (ix2 p (0 : Fin 1)) := rfl

/-- A bias vector added to every row. -/
def addRow (h : FVec Ideal ⟨2, ![N, K]⟩ .f32) (b : FVec Ideal ⟨1, ![K]⟩ .f32) : FVec Ideal ⟨2, ![N, K]⟩ .f32 :=
  fun i => h i + b (ix1 (i 1))

theorem addRow_apply (h : FVec Ideal ⟨2, ![N, K]⟩ .f32) (b : FVec Ideal ⟨1, ![K]⟩ .f32) (p : Fin N) (q : Fin K) :
    addRow h b (ix2 p q) = h (ix2 p q) + b (ix1 q) := rfl

/-- The entrywise maximum with zero. -/
def relu (h : FVec Ideal ⟨2, ![N, K]⟩ .f32) : FVec Ideal ⟨2, ![N, K]⟩ .f32 :=
  fun i => max (h i) (0 : EReal)

theorem relu_apply (h : FVec Ideal ⟨2, ![N, K]⟩ .f32) (i : (⟨2, ![N, K]⟩ : Shape).Idx) : relu h i = max (h i) (0 : EReal) := rfl

/-- A vector of node factors as a column. -/
def col (δ : FVec Ideal ⟨1, ![N]⟩ .f32) : FVec Ideal ⟨2, ![N, 1]⟩ .f32 :=
  fun i => δ (ix1 (i 0))

theorem col_apply (δ : FVec Ideal ⟨1, ![N]⟩ .f32) (p : Fin N) (u : Fin 1) : col δ (ix2 p u) = δ (ix1 p) := rfl

/-- `(x · W)` with every row scaled by its node's factor. -/
def lin (x : FVec Ideal ⟨2, ![N, A]⟩ .f32) (W : FVec Ideal ⟨2, ![A, K]⟩ .f32) (d : FVec Ideal ⟨2, ![N, 1]⟩ .f32) :
    FVec Ideal ⟨2, ![N, K]⟩ .f32 :=
  scaleRows (matProd x W) d

theorem lin_apply (x : FVec Ideal ⟨2, ![N, A]⟩ .f32) (W : FVec Ideal ⟨2, ![A, K]⟩ .f32) (d : FVec Ideal ⟨2, ![N, 1]⟩ .f32)
    (p : Fin N) (q : Fin K) : lin x W d (ix2 p q) = (∑ j : Fin A, x (ix2 p j) * W (ix2 j q)) * d (ix2 p (0 : Fin 1)) := rfl

/-- The activation between two layers: the aggregated rows scaled, the bias added, negative entries cut to zero. -/
def act (a : FVec Ideal ⟨2, ![N, B]⟩ .f32) (d : FVec Ideal ⟨2, ![N, 1]⟩ .f32) (b : FVec Ideal ⟨1, ![B]⟩ .f32) :
    FVec Ideal ⟨2, ![N, B]⟩ .f32 :=
  relu (addRow (scaleRows a d) b)

theorem act_apply (a : FVec Ideal ⟨2, ![N, B]⟩ .f32) (d : FVec Ideal ⟨2, ![N, 1]⟩ .f32) (b : FVec Ideal ⟨1, ![B]⟩ .f32)
    (p : Fin N) (q : Fin B) : act a d b (ix2 p q) = max (a (ix2 p q) * d (ix2 p (0 : Fin 1)) + b (ix1 q)) (0 : EReal) := rfl

/-- What the second and third kernels compute for the whole array: the activation, then the scaled linear map. -/
def layer (a : FVec Ideal ⟨2, ![N, B]⟩ .f32) (d : FVec Ideal ⟨2, ![N, 1]⟩ .f32) (b : FVec Ideal ⟨1, ![B]⟩ .f32)
    (W : FVec Ideal ⟨2, ![B, K]⟩ .f32) : FVec Ideal ⟨2, ![N, K]⟩ .f32 :=
  lin (act a d b) W d

theorem layer_apply (a : FVec Ideal ⟨2, ![N, B]⟩ .f32) (d : FVec Ideal ⟨2, ![N, 1]⟩ .f32) (b : FVec Ideal ⟨1, ![B]⟩ .f32)
    (W : FVec Ideal ⟨2, ![B, K]⟩ .f32) (p : Fin N) (q : Fin K) :
    layer a d b W (ix2 p q)
      = (∑ j : Fin B, max (a (ix2 p j) * d (ix2 p (0 : Fin 1)) + b (ix1 j)) (0 : EReal) * W (ix2 j q)) * d (ix2 p (0 : Fin 1)) := rfl

section Aggregate

variable (wfG : GatherDims.WF ⟨2, ![N, K]⟩ ⟨2, ![E, 1]⟩ ⟨2, ![E, K]⟩ [1] [0] [] [0] [] 1 ![1, K])
  (wfS : ScatterDims.WF ⟨2, ![N, K]⟩ ⟨2, ![E, 1]⟩ ⟨2, ![E, K]⟩ [1] [0] [0] 1)
  (wfF : GatherDims.WF ⟨1, ![N]⟩ ⟨2, ![E, 1]⟩ ⟨1, ![E]⟩ [] [0] [] [0] [] 1 ![1])

/-- The rows the source column names, summed into the rows the target column names, onto `z`. -/
def aggr (z : FVec Ideal ⟨2, ![N, K]⟩ .f32) (sc tc : IVec ⟨2, ![E, 1]⟩ 32) (t : FVec Ideal ⟨2, ![N, K]⟩ .f32) :
    FVec Ideal ⟨2, ![N, K]⟩ .f32 :=
  Host.scatterAdd (F := Ideal) (scatterRowsDims N E K wfS) z tc (Host.gather (gatherRowsDims N E K wfG) t sc)

/-- The same with row `e` first multiplied by the product of the factors of edge `e`'s two ends. -/
def aggrN (z : FVec Ideal ⟨2, ![N, K]⟩ .f32) (sc dc tc : IVec ⟨2, ![E, 1]⟩ 32) (δ : FVec Ideal ⟨1, ![N]⟩ .f32)
    (t : FVec Ideal ⟨2, ![N, K]⟩ .f32) : FVec Ideal ⟨2, ![N, K]⟩ .f32 :=
  Host.scatterAdd (F := Ideal) (scatterRowsDims N E K wfS) z tc
    (fun i => Host.gather (gatherRowsDims N E K wfG) t sc i
      * (Host.gather (gatherFlatDims N E wfF) δ sc (ix1 (i 0)) * Host.gather (gatherFlatDims N E wfF) δ dc (ix1 (i 0))))

end Aggregate

section Nets

variable (wfG : GatherDims.WF ⟨2, ![N, B]⟩ ⟨2, ![E, 1]⟩ ⟨2, ![E, B]⟩ [1] [0] [] [0] [] 1 ![1, B])
  (wfS : ScatterDims.WF ⟨2, ![N, B]⟩ ⟨2, ![E, 1]⟩ ⟨2, ![E, B]⟩ [1] [0] [0] 1)
  (wfG1 : GatherDims.WF ⟨2, ![N, 1]⟩ ⟨2, ![E, 1]⟩ ⟨2, ![E, 1]⟩ [1] [0] [] [0] [] 1 ![1, 1])
  (wfS1 : ScatterDims.WF ⟨2, ![N, 1]⟩ ⟨2, ![E, 1]⟩ ⟨2, ![E, 1]⟩ [1] [0] [0] 1)
  (wfF : GatherDims.WF ⟨1, ![N]⟩ ⟨2, ![E, 1]⟩ ⟨1, ![E]⟩ [] [0] [] [0] [] 1 ![1])

/-- The network with the normalisation per node: each linear map's rows are scaled before they are gathered, and each
    aggregated row is scaled again after the scatter. -/
def kernelNet (z : FVec Ideal ⟨2, ![N, B]⟩ .f32) (z1 : FVec Ideal ⟨2, ![N, 1]⟩ .f32)
    (x : FVec Ideal ⟨2, ![N, A]⟩ .f32) (W1 : FVec Ideal ⟨2, ![A, B]⟩ .f32) (b1 : FVec Ideal ⟨1, ![B]⟩ .f32)
    (W2 : FVec Ideal ⟨2, ![B, B]⟩ .f32) (b2 : FVec Ideal ⟨1, ![B]⟩ .f32) (W3 : FVec Ideal ⟨2, ![B, 1]⟩ .f32)
    (b3 : FVec Ideal ⟨1, ![1]⟩ .f32) (d : FVec Ideal ⟨2, ![N, 1]⟩ .f32) (sc tc : IVec ⟨2, ![E, 1]⟩ 32) :
    FVec Ideal ⟨2, ![N, 1]⟩ .f32 :=
  addRow (scaleRows (aggr wfG1 wfS1 z1 sc tc
    (layer (aggr wfG wfS z sc tc
      (layer (aggr wfG wfS z sc tc (lin x W1 d)) d b1 W2)) d b2 W3)) d) b3

/-- The network with the normalisation per edge. -/
def refNet (z : FVec Ideal ⟨2, ![N, B]⟩ .f32) (z1 : FVec Ideal ⟨2, ![N, 1]⟩ .f32)
    (x : FVec Ideal ⟨2, ![N, A]⟩ .f32) (W1 : FVec Ideal ⟨2, ![A, B]⟩ .f32) (b1 : FVec Ideal ⟨1, ![B]⟩ .f32)
    (W2 : FVec Ideal ⟨2, ![B, B]⟩ .f32) (b2 : FVec Ideal ⟨1, ![B]⟩ .f32) (W3 : FVec Ideal ⟨2, ![B, 1]⟩ .f32)
    (b3 : FVec Ideal ⟨1, ![1]⟩ .f32) (δ : FVec Ideal ⟨1, ![N]⟩ .f32) (sc dc tc : IVec ⟨2, ![E, 1]⟩ 32) :
    FVec Ideal ⟨2, ![N, 1]⟩ .f32 :=
  addRow (aggrN wfG1 wfS1 wfF z1 sc dc tc δ
    (matProd (relu (addRow (aggrN wfG wfS wfF z sc dc tc δ
      (matProd (relu (addRow (aggrN wfG wfS wfF z sc dc tc δ (matProd x W1)) b1)) W2)) b2)) W3)) b3

end Nets

end Cert.Net

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.Region0Value.lean ====
/-
  The first kernel region as one function of whole arrays.

  The region walks ten row blocks of 10000 rows. At each block it multiplies the block of the input rows by the
  whole weight matrix (a product accumulated into zero: the exact sum over the 128 shared coordinates), scales each row
  of the product by that row's node factor, and writes the block back. Read entry by entry, the block written at point
  `t` is rows `10000 t … 10000 t + 9999` of the scaled product of the WHOLE arrays; the ten blocks tile the output, so after
  the grid the output array is that scaled product.
-/
import proofs.«107657_j27367531610530_2_alg».proof.Proof.Gen.KernelIdeal.Frame
import proofs.«107657_j27367531610530_2_alg».proof.Proof.LibGcnNet
import proofs.«107657_j27367531610530_2_alg».proof.Proof.LibMatmulPlain
import proofs.«107657_j27367531610530_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl

/-- The body's stored value at row `r`, column `k` of a block: the row of the first operand times the column of the
    second, summed over the 128 shared coordinates, times the row's factor. -/
theorem pay0_apply (x0 : Vec Ideal S10000x128 .f32) (x1 : Vec Ideal S128x32 .f32) (x2 : Vec Ideal S10000x1 .f32)
    (r : Fin 10000) (k : Fin 32) :
    k0_pay1 x0 x1 x2 (ix2 r k) = (∑ j : Fin 128, x0 (ix2 r j) * x1 (ix2 j k)) * x2 (ix2 r (0 : Fin 1)) := by
  unfold k0_pay1
  rw [mulf_apply]
  refine congrArg₂ (· * ·) ?_ ?_
  · exact Cert.LibMatmulPlain.matmul_plain_zero_apply dot_S10000x128_S128x32_S10000x32_1_0_0_1_n_n rfl none
      (truncf FTy.bf16 x0 bitsLt_bf16_f32) (truncf FTy.bf16 x1 bitsLt_bf16_f32) r k
  · rw [shapeCast_self]
    exact Cert.Columns.broadcastTo_a1_ab_apply x2 broadcasts_S10000x1_S10000x32 r k

/-- The index maps over the grid: the row-blocked windows sit at block (t, 0), the weights at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A row-blocked window's block at point `t` holds rows `10000 t … 10000 t + 9999` of its array. -/
theorem blk0_0 (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c (Pipeline.arrRef spec0 0) : S100000x128.Idx → Elt Ideal .f32) i := by
  obtain ⟨e0, e1, -⟩ := idx_facts0 t
  unfold iblk0
  rw [View.read_apply]
  show V c (Pipeline.arrRef spec0 0) _ = V c (Pipeline.arrRef spec0 0) _
  refine congrArg _ ?_
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weights' block at every point is the whole array. -/
theorem blk0_1 (c : Dev nD) (t : Fin cfg0.N) (y : S128x32.Idx) (i : S128x32.Idx)
    (h0 : (i 0).val = (y 0).val) (h1 : (i 1).val = (y 1).val) :
    (iblk0 V c 1 t : Vec Ideal S128x32 .f32) y = (V c (Pipeline.arrRef spec0 1) : S128x32.Idx → Elt Ideal .f32) i := by
  obtain ⟨-, -, e0, e1, -⟩ := idx_facts0 t
  unfold iblk0
  rw [View.read_apply]
  show V c (Pipeline.arrRef spec0 1) _ = V c (Pipeline.arrRef spec0 1) _
  refine congrArg _ ?_
  funext a
  apply Fin.ext
  match a with
  | ⟨0, _⟩ => show win0_1.index t (0 : Fin 2) * 128 + 1 * (y 0).val = (i 0).val; rw [e0, h0]; omega
  | ⟨1, _⟩ => show win0_1.index t (1 : Fin 2) * 32 + 1 * (y 1).val = (i 1).val; rw [e1, h1]; omega

theorem blk0_2 (c : Dev nD) (t : Fin cfg0.N) (y : S10000x1.Idx) (i : S100000x1.Idx)
    (h0 : (i 0).val = t.val * 10000 + (y 0).val) (h1 : (i 1).val = (y 1).val) :
    (iblk0 V c 2 t : Vec Ideal S10000x1 .f32) y = (V c (Pipeline.arrRef spec0 2) : S100000x1.Idx → Elt Ideal .f32) i := by
  obtain ⟨-, -, -, -, e0, e1, -⟩ := idx_facts0 t
  unfold iblk0
  rw [View.read_apply]
  show V c (Pipeline.arrRef spec0 2) _ = V c (Pipeline.arrRef spec0 2) _
  refine congrArg _ ?_
  funext a
  apply Fin.ext
  match a with
  | ⟨0, _⟩ => show win0_2.index t (0 : Fin 2) * 10000 + 1 * (y 0).val = (i 0).val; rw [e0, h0]; omega
  | ⟨1, _⟩ => show win0_2.index t (1 : Fin 2) * 1 + 1 * (y 1).val = (i 1).val; rw [e1, h1]; omega

/-- The stored block is the matching block of the scaled product of the whole arrays: blocks that hold rows
    `10000 T + r` of the first operand and of the factors, and the whole second operand, give at (r, k) the
    entry (10000 T + r, k) of the scaled product. -/
theorem lin_block (A0 : S100000x128.Idx → EReal) (A1 : S128x32.Idx → EReal) (A2 : S100000x1.Idx → EReal)
    (x0 : Vec Ideal S10000x128 .f32) (x1 : Vec Ideal S128x32 .f32) (x2 : Vec Ideal S10000x1 .f32) (T : Nat)
    (h0 : ∀ (y : S10000x128.Idx) (i : S100000x128.Idx), (i 0).val = T * 10000 + (y 0).val → (i 1).val = (y 1).val → x0 y = A0 i)
    (h1 : ∀ (y : S128x32.Idx) (i : S128x32.Idx), (i 0).val = (y 0).val → (i 1).val = (y 1).val → x1 y = A1 i)
    (h2 : ∀ (y : S10000x1.Idx) (i : S100000x1.Idx), (i 0).val = T * 10000 + (y 0).val → (i 1).val = (y 1).val → x2 y = A2 i)
    (j : S10000x32.Idx) (i : S100000x32.Idx) (hi0 : (i 0).val = T * 10000 + (j 0).val) (hi1 : (i 1).val = (j 1).val) :
    k0_pay1 x0 x1 x2 j = Cert.Net.lin A0 A1 A2 i := by
  obtain ⟨r, k, rfl⟩ : ∃ (r : Fin 10000) (k : Fin 32), j = ix2 r k := ⟨j 0, j 1, eq_ix2 j⟩
  obtain ⟨p, q, rfl⟩ : ∃ (p : Fin 100000) (q : Fin 32), i = ix2 p q := ⟨i 0, i 1, eq_ix2 i⟩
  have hp : p.val = T * 10000 + r.val := hi0
  obtain rfl : q = k := Fin.ext hi1
  rw [pay0_apply, Cert.Net.lin_apply]
  exact congrArg₂ (· * ·) (Finset.sum_congr rfl fun l _ => congrArg₂ (· * ·) (h0 _ _ hp rfl) (h1 _ _ rfl rfl)) (h2 _ _ hp rfl)

/-- What point `t` writes back is block `t` of the scaled product of the arrays the region finds. -/
theorem flushed0_eq (c : Dev nD) (t : Fin cfg0.N) :
    (dat0 (F := Ideal) V c).flushed 3 t = ((cfg0.win 3).blk t).view.read (Elt Ideal)
      (Cert.Net.lin (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_off2]
  simp only [View.ld_unit_zero (S := S10000x128) zero_off2, View.ld_unit_zero (S := S128x32) zero_off2, View.ld_unit_zero (S := S10000x1) zero_off2]
  obtain ⟨-, -, -, -, -, -, e0, e1⟩ := idx_facts0 t
  funext j
  show k0_pay1 (iblk0 V c 0 t) (iblk0 V c 1 t) (iblk0 V c 2 t) j
    = Cert.Net.lin (V c (Pipeline.arrRef spec0 0)) (V c (Pipeline.arrRef spec0 1)) (V c (Pipeline.arrRef spec0 2)) (((cfg0.win 3).blk t).view.emb j)
  refine lin_block _ _ _ _ _ _ t.val (blk0_0 V c t) (blk0_1 V c t) (blk0_2 V c t) j _ ?_ ?_
  · show win0_3.index t (0 : Fin 2) * 10000 + 1 * (j 0).val = t.val * 10000 + (j 0).val
    rw [e0]; omega
  · show win0_3.index t (1 : Fin 2) * 32 + 1 * (j 1).val = (j 1).val
    rw [e1]; omega

/-- An index of the output array is in point `t`'s block iff each coordinate is in the block's range on its axis. -/
theorem mem_blk0 (t : Fin cfg0.N) (i : S100000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v16).slice (win0_3.rect t)).set ↔ _
  rw [View.set_slice_whole, Rect.mem_set_unit]
  exact Iff.rfl

/-- Row `r` of the output is written back by point `r / 10000`. -/
theorem cover0 (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 10 := rfl
  have ht : (i 0).val / 10000 < cfg0.N := by rw [hN]; omega
  refine ⟨⟨(i 0).val / 10000, ht⟩, flush0_3 _, ?_⟩
  rw [mem_blk0]
  obtain ⟨-, -, -, -, -, -, e0, e1⟩ := idx_facts0 ⟨(i 0).val / 10000, ht⟩
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_3.index ⟨(i 0).val / 10000, ht⟩ (1 : Fin 2) * 32 ≤ (i 1).val ∧ (i 1).val < win0_3.index ⟨(i 0).val / 10000, ht⟩ (1 : Fin 2) * 32 + 32
    rw [e1]; omega

/-- REGION 0 AS ONE FUNCTION: after the grid, the output array is the scaled product of the arrays the region finds. -/
theorem region0 (c : Dev nD) :
    (dat0 (F := Ideal) V c).arrAt 3 cfg0.N
      = Cert.Net.lin (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.RegionValue

end
-- ==== Proof.Region1Value.lean ====
/-
  The second kernel region as one function of whole arrays.

  The region walks ten row blocks of 10000 rows. At each block it scales the block of aggregated rows by the rows' node
  factors, adds the bias row, cuts negative entries to zero, multiplies by the whole 32×32 weight matrix (a product
  accumulated into zero: the exact sum over the 32 shared coordinates), scales each row of the product by its node
  factor again, and writes the block back. Read entry by entry, the block written at point `t` is rows
  `10000 t … 10000 t + 9999` of the layer applied to the WHOLE arrays; the ten blocks tile the output, so after the grid
  the output array is that layer.
-/
import proofs.«107657_j27367531610530_2_alg».proof.Proof.Gen.KernelIdeal.Frame
import proofs.«107657_j27367531610530_2_alg».proof.Proof.LibGcnNet
import proofs.«107657_j27367531610530_2_alg».proof.Proof.LibMatmulPlain
import proofs.«107657_j27367531610530_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off2_r1 : (![0, 0] : Fin 2 → Nat) = fun _ => 0 := funext fun a => by fin_cases a <;> rfl
theorem zero_off1_r1 : (![0] : Fin 1 → Nat) = fun _ => 0 := funext fun a => by fin_cases a; rfl

/-- The activation the body forms before its product, at row `r`, column `j` of a block: the aggregated entry times the
    row's factor, plus the bias of column `j`, cut below at zero. -/
theorem act1_apply (v0 : Vec Ideal S10000x32 .f32) (v2 : Vec Ideal S10000x1 .f32) (v6 : Vec Ideal S32 .f32) (r : Fin 10000) (j : Fin 32) :
    maximumf (addf (mulf (shapeCast S10000x32 v0 shapeCasts_S10000x32_S10000x32)
        (broadcastTo S10000x32 (shapeCast S10000x1 v2 shapeCasts_S10000x1_S10000x1) broadcasts_S10000x1_S10000x32))
        (broadcastTo S10000x32 (shapeCast S1x32 v6 shapeCasts_S32_S1x32) broadcasts_S1x32_S10000x32))
      (broadcast S10000x32 (Scalar.ofBits (F := Ideal) .f32 0x00000000#32)) (ix2 r j)
      = max (v0 (ix2 r j) * v2 (ix2 r (0 : Fin 1)) + v6 (ix1 j)) (0 : EReal) := by
  rw [maximumf_apply, addf_apply, mulf_apply, broadcast_apply, shapeCast_self, shapeCast_self]
  refine congrArg₂ max (congrArg₂ (· + ·) (congrArg₂ (· * ·) rfl ?_) ?_) Ideal.ofBits_zero_f32
  · exact Cert.Columns.broadcastTo_a1_ab_apply v2 broadcasts_S10000x1_S10000x32 r j
  · exact (broadcastTo_1b_ab_apply _ broadcasts_S1x32_S10000x32 r j).trans (shapeCast_a_1a_apply v6 shapeCasts_S32_S1x32 0 j)

/-- The body's stored value at row `r`, column `k` of a block: the activated row times column `k` of the weights, summed
    over the 32 shared coordinates, times the row's factor. -/
theorem pay1_apply (v0 : Vec Ideal S10000x32 .f32) (v2 : Vec Ideal S10000x1 .f32) (v6 : Vec Ideal S32 .f32) (v13 : Vec Ideal S32x32 .f32)
    (r : Fin 10000) (k : Fin 32) :
    k1_pay1 v0 v2 v6 v13 (ix2 r k)
      = (∑ j : Fin 32, max (v0 (ix2 r j) * v2 (ix2 r (0 : Fin 1)) + v6 (ix1 j)) (0 : EReal) * v13 (ix2 j k)) * v2 (ix2 r (0 : Fin 1)) := by
  unfold k1_pay1
  rw [mulf_apply]
  refine congrArg₂ (· * ·) ?_ ?_
  · refine (Cert.LibMatmulPlain.matmul_plain_zero_apply dot_S10000x32_S32x32_S10000x32_1_0_0_1_n_n rfl none _ _ r k).trans ?_
    exact Finset.sum_congr rfl fun j _ => congrArg₂ (· * ·) (act1_apply v0 v2 v6 r j) rfl
  · rw [shapeCast_self]
    exact Cert.Columns.broadcastTo_a1_ab_apply v2 broadcasts_S10000x1_S10000x32 r k

/-- The index maps over the grid: the row-blocked windows sit at block (t, 0), the bias and the weights at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated rows' block at point `t` holds rows `10000 t … 10000 t + 9999` of the array. -/
theorem blk1_0 (c : Dev nD) (t : Fin cfg1.N) (y : S10000x32.Idx) (i : S100000x32.Idx)
    (h0 : (i 0).val = t.val * 10000 + (y 0).val) (h1 : (i 1).val = (y 1).val) :
    (iblk1 V c 0 t : Vec Ideal S10000x32 .f32) y = (V c (Pipeline.arrRef spec1 0) : S100000x32.Idx → Elt Ideal .f32) i := by
  obtain ⟨e0, e1, -⟩ := idx_facts1 t
  unfold iblk1
  rw [View.read_apply]
  show V c (Pipeline.arrRef spec1 0) _ = V c (Pipeline.arrRef spec1 0) _
  refine congrArg _ ?_
  funext a
  apply Fin.ext
  match a with
  | ⟨0, _⟩ => show win1_0.index t (0 : Fin 2) * 10000 + 1 * (y 0).val = (i 0).val; rw [e0, h0]; omega
  | ⟨1, _⟩ => show win1_0.index t (1 : Fin 2) * 32 + 1 * (y 1).val = (i 1).val; rw [e1, h1]; omega

/-- The factors' block at point `t` holds rows `10000 t … 10000 t + 9999` of the column. -/
theorem blk1_1 (c : Dev nD) (t : Fin cfg1.N) (y : S10000x1.Idx) (i : S100000x1.Idx)
    (h0 : (i 0).val = t.val * 10000 + (y 0).val) (h1 : (i 1).val = (y 1).val) :
    (iblk1 V c 1 t : Vec Ideal S10000x1 .f32) y = (V c (Pipeline.arrRef spec1 1) : S100000x1.Idx → Elt Ideal .f32) i := by
  obtain ⟨-, -, e0, e1, -⟩ := idx_facts1 t
  unfold iblk1
  rw [View.read_apply]
  show V c (Pipeline.arrRef spec1 1) _ = V c (Pipeline.arrRef spec1 1) _
  refine congrArg _ ?_
  funext a
  apply Fin.ext
  match a with
  | ⟨0, _⟩ => show win1_1.index t (0 : Fin 2) * 10000 + 1 * (y 0).val = (i 0).val; rw [e0, h0]; omega
  | ⟨1, _⟩ => show win1_1.index t (1 : Fin 2) * 1 + 1 * (y 1).val = (i 1).val; rw [e1, h1]; omega

/-- The bias's block at every point is the whole vector. -/
theorem blk1_2 (c : Dev nD) (t : Fin cfg1.N) (y : S32.Idx) (i : S32.Idx) (h0 : (i 0).val = (y 0).val) :
    (iblk1 V c 2 t : Vec Ideal S32 .f32) y = (V c (Pipeline.arrRef spec1 2) : S32.Idx → Elt Ideal .f32) i := by
  obtain ⟨-, -, -, -, e0, -⟩ := idx_facts1 t
  unfold iblk1
  rw [View.read_apply]
  show V c (Pipeline.arrRef spec1 2) _ = V c (Pipeline.arrRef spec1 2) _
  refine congrArg _ ?_
  funext a
  apply Fin.ext
  match a with
  | ⟨0, _⟩ => show win1_2.index t (0 : Fin 1) * 32 + 1 * (y 0).val = (i 0).val; rw [e0, h0]; omega

/-- The weights' block at every point is the whole matrix. -/
theorem blk1_3 (c : Dev nD) (t : Fin cfg1.N) (y : S32x32.Idx) (i : S32x32.Idx)
    (h0 : (i 0).val = (y 0).val) (h1 : (i 1).val = (y 1).val) :
    (iblk1 V c 3 t : Vec Ideal S32x32 .f32) y = (V c (Pipeline.arrRef spec1 3) : S32x32.Idx → Elt Ideal .f32) i := by
  obtain ⟨-, -, -, -, -, e0, e1, -⟩ := idx_facts1 t
  unfold iblk1
  rw [View.read_apply]
  show V c (Pipeline.arrRef spec1 3) _ = V c (Pipeline.arrRef spec1 3) _
  refine congrArg _ ?_
  funext a
  apply Fin.ext
  match a with
  | ⟨0, _⟩ => show win1_3.index t (0 : Fin 2) * 32 + 1 * (y 0).val = (i 0).val; rw [e0, h0]; omega
  | ⟨1, _⟩ => show win1_3.index t (1 : Fin 2) * 32 + 1 * (y 1).val = (i 1).val; rw [e1, h1]; omega

/-- The stored block is the matching block of the layer applied to the whole arrays: blocks that hold rows
    `10000 T + r` of the aggregated rows and of the factors, the whole bias and the whole weights, give at (r, k) the
    entry (10000 T + r, k) of the layer. -/
theorem layer_block1 (A0 : S100000x32.Idx → EReal) (A1 : S100000x1.Idx → EReal) (A2 : S32.Idx → EReal) (A3 : S32x32.Idx → EReal)
    (x0 : Vec Ideal S10000x32 .f32) (x1 : Vec Ideal S10000x1 .f32) (x2 : Vec Ideal S32 .f32) (x3 : Vec Ideal S32x32 .f32) (T : Nat)
    (h0 : ∀ (y : S10000x32.Idx) (i : S100000x32.Idx), (i 0).val = T * 10000 + (y 0).val → (i 1).val = (y 1).val → x0 y = A0 i)
    (h1 : ∀ (y : S10000x1.Idx) (i : S100000x1.Idx), (i 0).val = T * 10000 + (y 0).val → (i 1).val = (y 1).val → x1 y = A1 i)
    (h2 : ∀ (y : S32.Idx) (i : S32.Idx), (i 0).val = (y 0).val → x2 y = A2 i)
    (h3 : ∀ (y : S32x32.Idx) (i : S32x32.Idx), (i 0).val = (y 0).val → (i 1).val = (y 1).val → x3 y = A3 i)
    (j : S10000x32.Idx) (i : S100000x32.Idx) (hi0 : (i 0).val = T * 10000 + (j 0).val) (hi1 : (i 1).val = (j 1).val) :
    k1_pay1 x0 x1 x2 x3 j = Cert.Net.layer A0 A1 A2 A3 i := by
  obtain ⟨r, k, rfl⟩ : ∃ (r : Fin 10000) (k : Fin 32), j = ix2 r k := ⟨j 0, j 1, eq_ix2 j⟩
  obtain ⟨p, q, rfl⟩ : ∃ (p : Fin 100000) (q : Fin 32), i = ix2 p q := ⟨i 0, i 1, eq_ix2 i⟩
  have hp : p.val = T * 10000 + r.val := hi0
  obtain rfl : q = k := Fin.ext hi1
  rw [pay1_apply, Cert.Net.layer_apply]
  exact congrArg₂ (· * ·)
    (Finset.sum_congr rfl fun l _ => congrArg₂ (· * ·)
      (congrArg₂ max (congrArg₂ (· + ·) (congrArg₂ (· * ·) (h0 _ _ hp rfl) (h1 _ _ hp rfl)) (h2 _ _ rfl)) rfl) (h3 _ _ rfl rfl))
    (h1 _ _ hp rfl)

/-- What point `t` writes back is block `t` of the layer applied to the arrays the region finds. -/
theorem flushed1_eq (c : Dev nD) (t : Fin cfg1.N) :
    (dat1 (F := Ideal) V c).flushed 4 t = ((cfg1.win 4).blk t).view.read (Elt Ideal)
      (Cert.Net.layer (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero zero_off2_r1]
  simp only [View.ld_unit_zero (S := S10000x32) zero_off2_r1, View.ld_unit_zero (S := S10000x1) zero_off2_r1, View.ld_unit_zero (S := S32) zero_off1_r1, View.ld_unit_zero (S := S32x32) zero_off2_r1]
  obtain ⟨-, -, -, -, -, -, -, e0, e1⟩ := idx_facts1 t
  funext j
  show k1_pay1 (iblk1 V c 0 t) (iblk1 V c 1 t) (iblk1 V c 2 t) (iblk1 V c 3 t) j
    = Cert.Net.layer (V c (Pipeline.arrRef spec1 0)) (V c (Pipeline.arrRef spec1 1)) (V c (Pipeline.arrRef spec1 2)) (V c (Pipeline.arrRef spec1 3)) (((cfg1.win 4).blk t).view.emb j)
  refine layer_block1 _ _ _ _ _ _ _ _ t.val (blk1_0 V c t) (blk1_1 V c t) (blk1_2 V c t) (blk1_3 V c t) j _ ?_ ?_
  · show win1_4.index t (0 : Fin 2) * 10000 + 1 * (j 0).val = t.val * 10000 + (j 0).val
    rw [e0]; omega
  · show win1_4.index t (1 : Fin 2) * 32 + 1 * (j 1).val = (j 1).val
    rw [e1]; omega

/-- An index of the output array is in point `t`'s block iff each coordinate is in the block's range on its axis. -/
theorem mem_blk1 (t : Fin cfg1.N) (i : S100000x32.Idx) :
    i ∈ ((cfg1.win 4).blk t).view.set ↔ ∀ a : Fin 2, win1_4.index t a * S10000x32.size a ≤ (i a).val ∧ (i a).val < win1_4.index t a * S10000x32.size a + S10000x32.size a := by
  show i ∈ ((View.whole main_v27).slice (win1_4.rect t)).set ↔ _
  rw [View.set_slice_whole, Rect.mem_set_unit]
  exact Iff.rfl

/-- Row `r` of the output is written back by point `r / 10000`. -/
theorem cover1 (i : S100000x32.Idx) : ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 10 := rfl
  have ht : (i 0).val / 10000 < cfg1.N := by rw [hN]; omega
  refine ⟨⟨(i 0).val / 10000, ht⟩, flush1_4 _, ?_⟩
  rw [mem_blk1]
  obtain ⟨-, -, -, -, -, -, -, e0, e1⟩ := idx_facts1 ⟨(i 0).val / 10000, ht⟩
  intro a
  match a with
  | ⟨0, _⟩ =>
    show win1_4.index ⟨(i 0).val / 10000, ht⟩ (0 : Fin 2) * 10000 ≤ (i 0).val ∧ (i 0).val < win1_4.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_4.index ⟨(i 0).val / 10000, ht⟩ (1 : Fin 2) * 32 ≤ (i 1).val ∧ (i 1).val < win1_4.index ⟨(i 0).val / 10000, ht⟩ (1 : Fin 2) * 32 + 32
    rw [e1]; omega

/-- REGION 1 AS ONE FUNCTION: after the grid, the output array is the layer applied to the arrays the region finds. -/
theorem region1 (c : Dev nD) :
    (dat1 (F := Ideal) V c).arrAt 4 cfg1.N
      = Cert.Net.layer (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed1_eq V c t) cover1

end Cert.KernelIdeal.RegionValue

end
-- ==== Proof.Region2Value.lean ====
/-
  The third kernel region as one function of whole arrays.

  The region walks ten row blocks of 10000 rows. At each block it scales the block of aggregated rows by the rows' node
  factors, adds the bias row, cuts negative entries to zero, multiplies by the whole 32×1 weight column (a product
  accumulated into zero: the exact sum over the 32 shared coordinates), scales each row of the one-column product by its
  node factor again, and writes the block back. Read entry by entry, the block written at point `t` is rows
  `10000 t … 10000 t + 9999` of the layer applied to the WHOLE arrays; the ten blocks tile the output, so after the grid
  the output array is that layer, a single column.
-/
import proofs.«107657_j27367531610530_2_alg».proof.Proof.Gen.KernelIdeal.Frame
import proofs.«107657_j27367531610530_2_alg».proof.Proof.LibGcnNet
import proofs.«107657_j27367531610530_2_alg».proof.Proof.LibMatmulPlain
import proofs.«107657_j27367531610530_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_off2_r2 : (![0, 0] : Fin 2 → Nat) = fun _ => 0 := funext fun a => by fin_cases a <;> rfl
theorem zero_off1_r2 : (![0] : Fin 1 → Nat) = fun _ => 0 := funext fun a => by fin_cases a; rfl

/-- The activation the body forms before its product, at row `r`, column `j` of a block: the aggregated entry times the
    row's factor, plus the bias of column `j`, cut below at zero. -/
theorem act2_apply (v0 : Vec Ideal S10000x32 .f32) (v2 : Vec Ideal S10000x1 .f32) (v6 : Vec Ideal S32 .f32) (r : Fin 10000) (j : Fin 32) :
    maximumf (addf (mulf (shapeCast S10000x32 v0 shapeCasts_S10000x32_S10000x32)
        (broadcastTo S10000x32 (shapeCast S10000x1 v2 shapeCasts_S10000x1_S10000x1) broadcasts_S10000x1_S10000x32))
        (broadcastTo S10000x32 (shapeCast S1x32 v6 shapeCasts_S32_S1x32) broadcasts_S1x32_S10000x32))
      (broadcast S10000x32 (Scalar.ofBits (F := Ideal) .f32 0x00000000#32)) (ix2 r j)
      = max (v0 (ix2 r j) * v2 (ix2 r (0 : Fin 1)) + v6 (ix1 j)) (0 : EReal) := by
  rw [maximumf_apply, addf_apply, mulf_apply, broadcast_apply, shapeCast_self, shapeCast_self]
  refine congrArg₂ max (congrArg₂ (· + ·) (congrArg₂ (· * ·) rfl ?_) ?_) Ideal.ofBits_zero_f32
  · exact Cert.Columns.broadcastTo_a1_ab_apply v2 broadcasts_S10000x1_S10000x32 r j
  · exact (broadcastTo_1b_ab_apply _ broadcasts_S1x32_S10000x32 r j).trans (shapeCast_a_1a_apply v6 shapeCasts_S32_S1x32 0 j)

/-- The body's stored value at row `r`, column `k` of a block: the activated row times column `k` of the weights, summed
    over the 32 shared coordinates, times the row's factor. -/
theorem pay2_apply (v0 : Vec Ideal S10000x32 .f32) (v2 : Vec Ideal S10000x1 .f32) (v6 : Vec Ideal S32 .f32) (v13 : Vec Ideal S32x1 .f32)
    (r : Fin 10000) (k : Fin 1) :
    k2_pay1 v0 v2 v6 v13 (ix2 r k)
      = (∑ j : Fin 32, max (v0 (ix2 r j) * v2 (ix2 r (0 : Fin 1)) + v6 (ix1 j)) (0 : EReal) * v13 (ix2 j k)) * v2 (ix2 r (0 : Fin 1)) := by
  unfold k2_pay1
  rw [mulf_apply]
  refine congrArg₂ (· * ·) ?_ ?_
  · refine (Cert.LibMatmulPlain.matmul_plain_zero_apply dot_S10000x32_S32x1_S10000x1_1_0_0_1_n_n rfl none _ _ r k).trans ?_
    exact Finset.sum_congr rfl fun j _ => congrArg₂ (· * ·) (act2_apply v0 v2 v6 r j) rfl
  · rw [shapeCast_self]
    exact congrArg v2 (funext fun a => Fin.ext (by match a with | ⟨0, _⟩ => rfl | ⟨1, _⟩ => exact Nat.lt_one_iff.mp k.isLt))

/-- The index maps over the grid: the row-blocked windows sit at block (t, 0), the bias and the weights at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The aggregated rows' block at point `t` holds rows `10000 t … 10000 t + 9999` of the array. -/
theorem blk2_0 (c : Dev nD) (t : Fin cfg2.N) (y : S10000x32.Idx) (i : S100000x32.Idx)
    (h0 : (i 0).val = t.val * 10000 + (y 0).val) (h1 : (i 1).val = (y 1).val) :
    (iblk2 V c 0 t : Vec Ideal S10000x32 .f32) y = (V c (Pipeline.arrRef spec2 0) : S100000x32.Idx → Elt Ideal .f32) i := by
  obtain ⟨e0, e1, -⟩ := idx_facts2 t
  unfold iblk2
  rw [View.read_apply]
  show V c (Pipeline.arrRef spec2 0) _ = V c (Pipeline.arrRef spec2 0) _
  refine congrArg _ ?_
  funext a
  apply Fin.ext
  match a with
  | ⟨0, _⟩ => show win2_0.index t (0 : Fin 2) * 10000 + 1 * (y 0).val = (i 0).val; rw [e0, h0]; omega
  | ⟨1, _⟩ => show win2_0.index t (1 : Fin 2) * 32 + 1 * (y 1).val = (i 1).val; rw [e1, h1]; omega

/-- The factors' block at point `t` holds rows `10000 t … 10000 t + 9999` of the column. -/
theorem blk2_1 (c : Dev nD) (t : Fin cfg2.N) (y : S10000x1.Idx) (i : S100000x1.Idx)
    (h0 : (i 0).val = t.val * 10000 + (y 0).val) (h1 : (i 1).val = (y 1).val) :
    (iblk2 V c 1 t : Vec Ideal S10000x1 .f32) y = (V c (Pipeline.arrRef spec2 1) : S100000x1.Idx → Elt Ideal .f32) i := by
  obtain ⟨-, -, e0, e1, -⟩ := idx_facts2 t
  unfold iblk2
  rw [View.read_apply]
  show V c (Pipeline.arrRef spec2 1) _ = V c (Pipeline.arrRef spec2 1) _
  refine congrArg _ ?_
  funext a
  apply Fin.ext
  match a with
  | ⟨0, _⟩ => show win2_1.index t (0 : Fin 2) * 10000 + 1 * (y 0).val = (i 0).val; rw [e0, h0]; omega
  | ⟨1, _⟩ => show win2_1.index t (1 : Fin 2) * 1 + 1 * (y 1).val = (i 1).val; rw [e1, h1]; omega

/-- The bias's block at every point is the whole vector. -/
theorem blk2_2 (c : Dev nD) (t : Fin cfg2.N) (y : S32.Idx) (i : S32.Idx) (h0 : (i 0).val = (y 0).val) :
    (iblk2 V c 2 t : Vec Ideal S32 .f32) y = (V c (Pipeline.arrRef spec2 2) : S32.Idx → Elt Ideal .f32) i := by
  obtain ⟨-, -, -, -, e0, -⟩ := idx_facts2 t
  unfold iblk2
  rw [View.read_apply]
  show V c (Pipeline.arrRef spec2 2) _ = V c (Pipeline.arrRef spec2 2) _
  refine congrArg _ ?_
  funext a
  apply Fin.ext
  match a with
  | ⟨0, _⟩ => show win2_2.index t (0 : Fin 1) * 32 + 1 * (y 0).val = (i 0).val; rw [e0, h0]; omega

/-- The weights' block at every point is the whole matrix. -/
theorem blk2_3 (c : Dev nD) (t : Fin cfg2.N) (y : S32x1.Idx) (i : S32x1.Idx)
    (h0 : (i 0).val = (y 0).val) (h1 : (i 1).val = (y 1).val) :
    (iblk2 V c 3 t : Vec Ideal S32x1 .f32) y = (V c (Pipeline.arrRef spec2 3) : S32x1.Idx → Elt Ideal .f32) i := by
  obtain ⟨-, -, -, -, -, e0, e1, -⟩ := idx_facts2 t
  unfold iblk2
  rw [View.read_apply]
  show V c (Pipeline.arrRef spec2 3) _ = V c (Pipeline.arrRef spec2 3) _
  refine congrArg _ ?_
  funext a
  apply Fin.ext
  match a with
  | ⟨0, _⟩ => show win2_3.index t (0 : Fin 2) * 32 + 1 * (y 0).val = (i 0).val; rw [e0, h0]; omega
  | ⟨1, _⟩ => show win2_3.index t (1 : Fin 2) * 1 + 1 * (y 1).val = (i 1).val; rw [e1, h1]; omega

/-- The stored block is the matching block of the layer applied to the whole arrays: blocks that hold rows
    `10000 T + r` of the aggregated rows and of the factors, the whole bias and the whole weights, give at (r, k) the
    entry (10000 T + r, k) of the layer. -/
theorem layer_block2 (A0 : S100000x32.Idx → EReal) (A1 : S100000x1.Idx → EReal) (A2 : S32.Idx → EReal) (A3 : S32x1.Idx → EReal)
    (x0 : Vec Ideal S10000x32 .f32) (x1 : Vec Ideal S10000x1 .f32) (x2 : Vec Ideal S32 .f32) (x3 : Vec Ideal S32x1 .f32) (T : Nat)
    (h0 : ∀ (y : S10000x32.Idx) (i : S100000x32.Idx), (i 0).val = T * 10000 + (y 0).val → (i 1).val = (y 1).val → x0 y = A0 i)
    (h1 : ∀ (y : S10000x1.Idx) (i : S100000x1.Idx), (i 0).val = T * 10000 + (y 0).val → (i 1).val = (y 1).val → x1 y = A1 i)
    (h2 : ∀ (y : S32.Idx) (i : S32.Idx), (i 0).val = (y 0).val → x2 y = A2 i)
    (h3 : ∀ (y : S32x1.Idx) (i : S32x1.Idx), (i 0).val = (y 0).val → (i 1).val = (y 1).val → x3 y = A3 i)
    (j : S10000x1.Idx) (i : S100000x1.Idx) (hi0 : (i 0).val = T * 10000 + (j 0).val) (hi1 : (i 1).val = (j 1).val) :
    k2_pay1 x0 x1 x2 x3 j = Cert.Net.layer A0 A1 A2 A3 i := by
  obtain ⟨r, k, rfl⟩ : ∃ (r : Fin 10000) (k : Fin 1), j = ix2 r k := ⟨j 0, j 1, eq_ix2 j⟩
  obtain ⟨p, q, rfl⟩ : ∃ (p : Fin 100000) (q : Fin 1), i = ix2 p q := ⟨i 0, i 1, eq_ix2 i⟩
  have hp : p.val = T * 10000 + r.val := hi0
  obtain rfl : q = k := Fin.ext hi1
  rw [pay2_apply, Cert.Net.layer_apply]
  exact congrArg₂ (· * ·)
    (Finset.sum_congr rfl fun l _ => congrArg₂ (· * ·)
      (congrArg₂ max (congrArg₂ (· + ·) (congrArg₂ (· * ·) (h0 _ _ hp rfl) (h1 _ _ hp rfl)) (h2 _ _ rfl)) rfl) (h3 _ _ rfl rfl))
    (h1 _ _ hp rfl)

/-- What point `t` writes back is block `t` of the layer applied to the arrays the region finds. -/
theorem flushed2_eq (c : Dev nD) (t : Fin cfg2.N) :
    (dat2 (F := Ideal) V c).flushed 4 t = ((cfg2.win 4).blk t).view.read (Elt Ideal)
      (Cert.Net.layer (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero zero_off2_r2]
  simp only [View.ld_unit_zero (S := S10000x32) zero_off2_r2, View.ld_unit_zero (S := S10000x1) zero_off2_r2, View.ld_unit_zero (S := S32) zero_off1_r2, View.ld_unit_zero (S := S32x1) zero_off2_r2]
  obtain ⟨-, -, -, -, -, -, -, e0, e1⟩ := idx_facts2 t
  funext j
  show k2_pay1 (iblk2 V c 0 t) (iblk2 V c 1 t) (iblk2 V c 2 t) (iblk2 V c 3 t) j
    = Cert.Net.layer (V c (Pipeline.arrRef spec2 0)) (V c (Pipeline.arrRef spec2 1)) (V c (Pipeline.arrRef spec2 2)) (V c (Pipeline.arrRef spec2 3)) (((cfg2.win 4).blk t).view.emb j)
  refine layer_block2 _ _ _ _ _ _ _ _ t.val (blk2_0 V c t) (blk2_1 V c t) (blk2_2 V c t) (blk2_3 V c t) j _ ?_ ?_
  · show win2_4.index t (0 : Fin 2) * 10000 + 1 * (j 0).val = t.val * 10000 + (j 0).val
    rw [e0]; omega
  · show win2_4.index t (1 : Fin 2) * 1 + 1 * (j 1).val = (j 1).val
    rw [e1]; omega

/-- An index of the output array is in point `t`'s block iff each coordinate is in the block's range on its axis. -/
theorem mem_blk2 (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v38).slice (win2_4.rect t)).set ↔ _
  rw [View.set_slice_whole, Rect.mem_set_unit]
  exact Iff.rfl

/-- Row `r` of the output is written back by point `r / 10000`. -/
theorem cover2 (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 10 := rfl
  have ht : (i 0).val / 10000 < cfg2.N := by rw [hN]; omega
  refine ⟨⟨(i 0).val / 10000, ht⟩, flush2_4 _, ?_⟩
  rw [mem_blk2]
  obtain ⟨-, -, -, -, -, -, -, e0, e1⟩ := idx_facts2 ⟨(i 0).val / 10000, ht⟩
  intro a
  match a with
  | ⟨0, _⟩ =>
    show win2_4.index ⟨(i 0).val / 10000, ht⟩ (0 : Fin 2) * 10000 ≤ (i 0).val ∧ (i 0).val < win2_4.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win2_4.index ⟨(i 0).val / 10000, ht⟩ (1 : Fin 2) * 1 ≤ (i 1).val ∧ (i 1).val < win2_4.index ⟨(i 0).val / 10000, ht⟩ (1 : Fin 2) * 1 + 1
    rw [e1]; omega

/-- REGION 2 AS ONE FUNCTION: after the grid, the output array is the layer applied to the arrays the region finds. -/
theorem region2 (c : Dev nD) :
    (dat2 (F := Ideal) V c).arrAt 4 cfg2.N
      = Cert.Net.layer (V c (Pipeline.arrRef spec2 0)) (V c (Pipeline.arrRef spec2 1)) (V c (Pipeline.arrRef spec2 2)) (V c (Pipeline.arrRef spec2 3)) :=
  (dat2 (F := Ideal) V c).arrAt_eq_of_cover 4 _ (fun t _ => flushed2_eq V c t) cover2

end Cert.KernelIdeal.RegionValue

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.HostValue.lean ====
/-
  The idealized kernel program's result as one function of its arguments.

  Boundary by boundary (`Gen.W0 … Gen.W9`): the first host stretch makes the two edge columns (the sources, normalised
  for a gather; the targets, raw for the scatters), the in-degrees and the node factors `dinv = where (deg > 0, rsqrt deg, 0)`,
  kept as a column; each kernel region leaves in its output array one whole-array function of its input arrays
  (`Net.lin`, `Net.layer`: RegionValue); each later host stretch gathers the rows the source column names from the
  region's output and sums them into the rows the target column names (`Net.aggr`); the last stretch scales the rows
  once more, adds the last bias and drops the unit axis. Composed, the result buffer holds `Net.kernelNet` of the
  arguments, reshaped to a vector.
-/
import proofs.«107657_j27367531610530_2_alg».proof.Proof.Gen.KernelIdeal.Frame
import proofs.«107657_j27367531610530_2_alg».proof.Proof.HostKeep
import proofs.«107657_j27367531610530_2_alg».proof.Proof.LibGcnNet
import proofs.«107657_j27367531610530_2_alg».proof.Proof.Region0Value
import proofs.«107657_j27367531610530_2_alg».proof.Proof.Region1Value
import proofs.«107657_j27367531610530_2_alg».proof.Proof.Region2Value
import proofs.«107657_j27367531610530_2_alg».proof.Proof.LibHostBroadcast
import Idealize.ShloMosaic.Lib.StableHlo.Run
import Idealize.ShloMosaic.Lib.ValueIdx

set_option maxRecDepth 16384

noncomputable section

namespace Cert.KernelIdeal.HostValue

open Cert.KernelIdeal Cert.KernelIdeal.Gen Cert.KernelIdeal.HostKeep
open Idealize.ShloMosaic Idealize.ShloMosaic.TcCoe Idealize.SL.Sem Idealize.ShloMosaic.StableHlo Idealize.ShloMosaic.ValueIdx
open Idealize.ShloMosaic.Pipeline (Dat Cfg Window)

/-! ## The columns and the node factors, as functions of the edge list -/

/-- The source words: row 0 of the edge list, then one self loop per node. -/
def srcv (x1 : IVec S2x3200000 32) : IVec S3300000 32 :=
  concatenate S3300000 0 [⟨S3200000, shapeCast S3200000 (extractStridedSlice S1x3200000 ![0, 0] x1 slices_S2x3200000_S1x3200000_0_0) shapeCasts_S1x3200000_S3200000⟩, ⟨S100000, iotaInDim S100000 32 0⟩] concatenates_S3200000_S100000_S3300000_d0

/-- The target words: row 1 of the edge list, then one self loop per node. -/
def dstv (x1 : IVec S2x3200000 32) : IVec S3300000 32 :=
  concatenate S3300000 0 [⟨S3200000, shapeCast S3200000 (extractStridedSlice S1x3200000 ![1, 0] x1 slices_S2x3200000_S1x3200000_1_0) shapeCasts_S1x3200000_S3200000⟩, ⟨S100000, iotaInDim S100000 32 0⟩] concatenates_S3200000_S100000_S3300000_d0

/-- The target column as every scatter reads it. -/
def tcol (x1 : IVec S2x3200000 32) : IVec S3300000x1 32 :=
  broadcastInDim S3300000x1 ![0] bcast_S3300000_S3300000x1_0 (dstv x1)

/-- The source column as every gather reads it: a negative word gets the number of nodes added. -/
def scol (x1 : IVec S2x3200000 32) : IVec S3300000x1 32 :=
  broadcastInDim S3300000x1 ![0] bcast_S3300000_S3300000x1_0
    (select (cmpi .slt (srcv x1) (broadcastInDim S3300000 ![] bcast_S_S3300000 (constantI S_ 32 0#32)))
      (addi (srcv x1) (broadcastInDim S3300000 ![] bcast_S_S3300000 (constantI S_ 32 100000#32))) (srcv x1))

/-- The in-degrees: one for every edge, summed into its target's entry. -/
def deg (x1 : IVec S2x3200000 32) : FVec Ideal S100000 .f32 :=
  Host.scatterAdd (F := Ideal) scatter_S100000_S3300000x1_S3300000_n_0_0_1
    (broadcastInDim S100000 ![] bcast_S_S100000 (constant (F := Ideal) S_ .f32 0x00000000#32)) (tcol x1)
    (broadcastInDim S3300000 ![] bcast_S_S3300000 (constant (F := Ideal) S_ .f32 0x3F800000#32))

/-- The node factors: the inverse square root of a positive in-degree, zero otherwise. -/
def dinv (x1 : IVec S2x3200000 32) : FVec Ideal S100000 .f32 :=
  select (cmpf (F := Ideal) .ogt (deg x1) (broadcastInDim S100000 ![] bcast_S_S100000 (constant (F := Ideal) S_ .f32 0x00000000#32)))
    (Host.rsqrt (F := Ideal) (deg x1))
    (broadcastInDim S100000 ![] bcast_S_S100000 (id (constant (F := Ideal) S_ .f32 0x00000000#32)))

/-- The node factors as a column. -/
def dcol (x1 : IVec S2x3200000 32) : FVec Ideal S100000x1 .f32 :=
  shapeCast S100000x1 (dinv x1) shapeCasts_S100000_S100000x1

/-- The zero tables the scatters add onto. -/
def z32 : FVec Ideal S100000x32 .f32 := broadcastInDim S100000x32 ![] bcast_S_S100000x32 (constant (F := Ideal) S_ .f32 0x00000000#32)
def z1 : FVec Ideal S100000x1 .f32 := broadcastInDim S100000x1 ![] bcast_S_S100000x1 (constant (F := Ideal) S_ .f32 0x00000000#32)

variable (m : (ℓ : Loc nD τ sig) → Buf (Elt Ideal) ℓ) (ρ : Dev nD → PrngReg) (c : Dev nD)

/-! ## The first stretch -/

set_option maxHeartbeats 4000000 in
theorem at_v3 : W1 m ρ c (Proc.devRef .tc main_v3) = srcv (m ((c : Thread nD τ).loc main_arg1)) := by
  show StableHlo.after hostOps0 (W0 m ρ c) (Proc.devRef .tc main_v3) = _
  after_results
  rfl

set_option maxHeartbeats 4000000 in
theorem at_v6 : W1 m ρ c (Proc.devRef .tc main_v6) = dstv (m ((c : Thread nD τ).loc main_arg1)) := by
  show StableHlo.after hostOps0 (W0 m ρ c) (Proc.devRef .tc main_v6) = _
  after_results
  rfl

set_option maxHeartbeats 4000000 in
theorem at_v12 : W1 m ρ c (Proc.devRef .tc main_v12)
    = cmpf (F := Ideal) .ogt (deg (m ((c : Thread nD τ).loc main_arg1))) (broadcastInDim S100000 ![] bcast_S_S100000 (constant (F := Ideal) S_ .f32 0x00000000#32)) := by
  show StableHlo.after hostOps0 (W0 m ρ c) (Proc.devRef .tc main_v12) = _
  after_results
  dsimp only
  rfl

set_option maxHeartbeats 4000000 in
theorem at_v13 : W1 m ρ c (Proc.devRef .tc main_v13) = Host.rsqrt (F := Ideal) (deg (m ((c : Thread nD τ).loc main_arg1))) := by
  show StableHlo.after hostOps0 (W0 m ρ c) (Proc.devRef .tc main_v13) = _
  after_results
  dsimp only
  rfl

set_option maxHeartbeats 4000000 in
theorem at_cst2 : W1 m ρ c (Proc.devRef .tc main_cst_2) = constant (F := Ideal) S_ .f32 0x00000000#32 := by
  show StableHlo.after hostOps0 (W0 m ρ c) (Proc.devRef .tc main_cst_2) = _
  after_results

/-- The outlined selection's three operations, read at their buffers' own types, are the selection of the operands. -/
theorem where_shape (A : IVec S100000 1) (B : FVec Ideal S100000 .f32) (C : FVec Ideal S_ .f32) :
    (TRef.of main_v14 : TRef sig ⟨S100000, .f32⟩).toBuf (Val := Elt Ideal)
      (select ((TRef.of main_v12 : TRef sig ⟨S100000, .i1⟩).ofBuf (Val := Elt Ideal) A)
        ((TRef.of main_v13 : TRef sig ⟨S100000, .f32⟩).ofBuf (Val := Elt Ideal) B)
        ((TRef.of main_call0_v1 : TRef sig ⟨S100000, .f32⟩).ofBuf (Val := Elt Ideal)
          ((TRef.of main_call0_v1 : TRef sig ⟨S100000, .f32⟩).toBuf (Val := Elt Ideal)
            (broadcastInDim S100000 ![] bcast_S_S100000
              ((TRef.of main_call0_v0 : TRef sig ⟨S_, .f32⟩).ofBuf (Val := Elt Ideal)
                ((TRef.of main_call0_v0 : TRef sig ⟨S_, .f32⟩).toBuf (Val := Elt Ideal)
                  (id ((TRef.of main_cst_2 : TRef sig ⟨S_, .f32⟩).ofBuf (Val := Elt Ideal) C))))))))
      = select A B (broadcastInDim S100000 ![] bcast_S_S100000 (id C)) := rfl

set_option maxHeartbeats 4000000 in
theorem at_v14 : W2 m ρ c (Proc.devRef .tc main_v14) = dinv (m ((c : Thread nD τ).loc main_arg1)) := by
  have h12 := at_v12 m ρ c
  have h13 := at_v13 m ρ c
  have hc := at_cst2 m ρ c
  show StableHlo.after hostOps0_1 (W1 m ρ c) (Proc.devRef .tc main_v14) = _
  generalize W1 m ρ c = V at h12 h13 hc ⊢
  after_results
  rw [h12, h13, hc]
  unfold dinv
  exact where_shape _ _ _

set_option maxHeartbeats 4000000 in
theorem at_v15 : W3 m ρ c (Proc.devRef .tc main_v15) = dcol (m ((c : Thread nD τ).loc main_arg1)) := by
  have h14 := at_v14 m ρ c
  show StableHlo.after hostOps0_2 (W2 m ρ c) (Proc.devRef .tc main_v15) = _
  generalize W2 m ρ c = V at h14 ⊢
  after_results
  rw [h14]
  dsimp only
  rfl

/-! ## The regions and the later stretches -/

abbrev wfG := gather_S100000x32_S3300000x1_S3300000x32_1_0_n_n_0_1_132.wf
abbrev wfS := scatter_S100000x32_S3300000x1_S3300000x32_1_0_0_1.wf
abbrev wfG1 := gather_S100000x1_S3300000x1_S3300000x1_1_0_n_n_0_1_11.wf
abbrev wfS1 := scatter_S100000x1_S3300000x1_S3300000x1_1_0_0_1.wf

/-- The first region's output: the first linear map with every row scaled by its node's factor. -/
def h1 (x0 : FVec Ideal S100000x128 .f32) (x1 : IVec S2x3200000 32) (x2 : FVec Ideal S128x32 .f32) : FVec Ideal S100000x32 .f32 :=
  Net.lin x0 x2 (dcol x1)

/-- The first aggregation. -/
def a1 (x0 : FVec Ideal S100000x128 .f32) (x1 : IVec S2x3200000 32) (x2 : FVec Ideal S128x32 .f32) : FVec Ideal S100000x32 .f32 :=
  Net.aggr wfG wfS z32 (scol x1) (tcol x1) (h1 x0 x1 x2)

theorem at_v16 : W4 m ρ c (Proc.devRef .tc main_v16) = h1 (m ((c : Thread nD τ).loc main_arg0)) (m ((c : Thread nD τ).loc main_arg1)) (m ((c : Thread nD τ).loc main_arg2)) := by
  refine (W4_arr m ρ c 3).trans ((RegionValue.region0 (V3 m ρ) c).trans ?_)
  show Net.lin (W3 m ρ c (Proc.devRef .tc main_arg0)) (W3 m ρ c (Proc.devRef .tc main_arg2)) (W3 m ρ c (Proc.devRef .tc main_v15)) = _
  rw [keep_main_arg0_3_0 m ρ c, keep_main_arg2_3_0 m ρ c, at_v15 m ρ c]
  rfl

set_option maxHeartbeats 4000000 in
theorem at_v26 : W5 m ρ c (Proc.devRef .tc main_v26) = a1 (m ((c : Thread nD τ).loc main_arg0)) (m ((c : Thread nD τ).loc main_arg1)) (m ((c : Thread nD τ).loc main_arg2)) := by
  have h3 := (keep_main_v3_4_1 m ρ c).trans (at_v3 m ρ c)
  have h6 := (keep_main_v6_4_1 m ρ c).trans (at_v6 m ρ c)
  have h16 := at_v16 m ρ c
  show StableHlo.after hostOps1 (W4 m ρ c) (Proc.devRef .tc main_v26) = _
  generalize W4 m ρ c = V at h3 h6 h16 ⊢
  after_results
  rw [h3, h6, h16]
  rfl

/-- The second region's output. -/
def h2 (x0 : FVec Ideal S100000x128 .f32) (x1 : IVec S2x3200000 32) (x2 : FVec Ideal S128x32 .f32) (x3 : FVec Ideal S32 .f32)
    (x4 : FVec Ideal S32x32 .f32) : FVec Ideal S100000x32 .f32 :=
  Net.layer (a1 x0 x1 x2) (dcol x1) x3 x4

/-- The second aggregation. -/
def a2 (x0 : FVec Ideal S100000x128 .f32) (x1 : IVec S2x3200000 32) (x2 : FVec Ideal S128x32 .f32) (x3 : FVec Ideal S32 .f32)
    (x4 : FVec Ideal S32x32 .f32) : FVec Ideal S100000x32 .f32 :=
  Net.aggr wfG wfS z32 (scol x1) (tcol x1) (h2 x0 x1 x2 x3 x4)

theorem at_v27 : W6 m ρ c (Proc.devRef .tc main_v27) = h2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ((RegionValue.region1 (V5 m ρ) c).trans ?_)
  show Net.layer (W5 m ρ c (Proc.devRef .tc main_v26)) (W5 m ρ c (Proc.devRef .tc main_v15)) (W5 m ρ c (Proc.devRef .tc main_arg3)) (W5 m ρ c (Proc.devRef .tc main_arg4)) = _
  rw [at_v26 m ρ c, keep_main_v15_5_3 m ρ c, at_v15 m ρ c, keep_main_arg3_5_0 m ρ c, keep_main_arg4_5_0 m ρ c]
  rfl

set_option maxHeartbeats 4000000 in
theorem at_v37 : W7 m ρ c (Proc.devRef .tc main_v37) = a2 (m ((c : Thread nD τ).loc main_arg0)) (m ((c : Thread nD τ).loc main_arg1)) (m ((c : Thread nD τ).loc main_arg2)) (m ((c : Thread nD τ).loc main_arg3)) (m ((c : Thread nD τ).loc main_arg4)) := by
  have h3 := ((keep_main_v3_6_4 m ρ c).trans (keep_main_v3_4_1 m ρ c)).trans (at_v3 m ρ c)
  have h6 := ((keep_main_v6_6_4 m ρ c).trans (keep_main_v6_4_1 m ρ c)).trans (at_v6 m ρ c)
  have h27 := at_v27 m ρ c
  show StableHlo.after hostOps2 (W6 m ρ c) (Proc.devRef .tc main_v37) = _
  generalize W6 m ρ c = V at h3 h6 h27 ⊢
  after_results
  rw [h3, h6, h27]
  rfl

/-- The third region's output. -/
def h3 (x0 : FVec Ideal S100000x128 .f32) (x1 : IVec S2x3200000 32) (x2 : FVec Ideal S128x32 .f32) (x3 : FVec Ideal S32 .f32)
    (x4 : FVec Ideal S32x32 .f32) (x5 : FVec Ideal S32 .f32) (x6 : FVec Ideal S32x1 .f32) : FVec Ideal S100000x1 .f32 :=
  Net.layer (a2 x0 x1 x2 x3 x4) (dcol x1) x5 x6

/-- The third aggregation. -/
def a3 (x0 : FVec Ideal S100000x128 .f32) (x1 : IVec S2x3200000 32) (x2 : FVec Ideal S128x32 .f32) (x3 : FVec Ideal S32 .f32)
    (x4 : FVec Ideal S32x32 .f32) (x5 : FVec Ideal S32 .f32) (x6 : FVec Ideal S32x1 .f32) : FVec Ideal S100000x1 .f32 :=
  Net.aggr wfG1 wfS1 z1 (scol x1) (tcol x1) (h3 x0 x1 x2 x3 x4 x5 x6)

theorem at_v38 : W8 m ρ c (Proc.devRef .tc main_v38) = h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 4).trans ((RegionValue.region2 (V7 m ρ) c).trans ?_)
  show Net.layer (W7 m ρ c (Proc.devRef .tc main_v37)) (W7 m ρ c (Proc.devRef .tc main_v15)) (W7 m ρ c (Proc.devRef .tc main_arg5)) (W7 m ρ c (Proc.devRef .tc main_arg6)) = _
  rw [at_v37 m ρ c, keep_main_v15_7_5 m ρ c, keep_main_v15_5_3 m ρ c, at_v15 m ρ c, keep_main_arg5_7_0 m ρ c, keep_main_arg6_7_0 m ρ c]
  rfl

/-- A bias of one entry, placed as a [1,1] row and spread over the rows, added to a scaled column: the last step. -/
theorem tail_eq (a d : FVec Ideal S100000x1 .f32) (b : FVec Ideal S1 .f32) :
    addf (mulf a d) (broadcastInDim S100000x1 ![0, 1] bcast_S1x1_S100000x1_0_1 (broadcastInDim S1x1 ![1] bcast_S1_S1x1_1 b))
      = Net.addRow (Net.scaleRows a d) b := by
  funext i
  obtain ⟨p, q, rfl⟩ : ∃ (p : Fin 100000) (q : Fin 1), i = ix2 p q := ⟨i 0, i 1, eq_ix2 i⟩
  obtain rfl : q = 0 := Subsingleton.elim _ _
  rw [Net.addRow_apply, Net.scaleRows_apply, addf_apply, mulf_apply,
    Cert.LibHostBroadcast.bcast_1b_ab_apply (![0, 1] : Fin 2 → Fin 2) rfl bcast_S1x1_S100000x1_0_1 _ p (0 : Fin 1),
    Cert.LibHostBroadcast.bcast_b_1b_apply (![1] : Fin 1 → Fin 2) rfl bcast_S1_S1x1_1 b (0 : Fin 1) (0 : Fin 1)]

set_option maxHeartbeats 4000000 in
/-- THE KERNEL PROGRAM'S RESULT: the network with the normalisation per node, of the arguments, as a vector. -/
theorem at_v53 : W9 m ρ c (Proc.devRef .tc main_v53)
    = shapeCast S100000 (Net.kernelNet wfG wfS wfG1 wfS1 z32 z1 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (dcol (m ((c : Thread nD τ).loc main_arg1))) (scol (m ((c : Thread nD τ).loc main_arg1))) (tcol (m ((c : Thread nD τ).loc main_arg1)))) shapeCasts_S100000x1_S100000 := by
  have h3 := (((keep_main_v3_8_6 m ρ c).trans (keep_main_v3_6_4 m ρ c)).trans (keep_main_v3_4_1 m ρ c)).trans (at_v3 m ρ c)
  have h6 := (((keep_main_v6_8_6 m ρ c).trans (keep_main_v6_6_4 m ρ c)).trans (keep_main_v6_4_1 m ρ c)).trans (at_v6 m ρ c)
  have h38 := at_v38 m ρ c
  have h15 := (((keep_main_v15_8_7 m ρ c).trans (keep_main_v15_7_5 m ρ c)).trans (keep_main_v15_5_3 m ρ c)).trans (at_v15 m ρ c)
  have h7 := keep_main_arg7_8_0 m ρ c
  show StableHlo.after hostOps3 (W8 m ρ c) (Proc.devRef .tc main_v53) = _
  generalize W8 m ρ c = V at h3 h6 h38 h15 h7 ⊢
  after_results
  rw [h3, h6, h38, h15, h7]
  dsimp only
  have e := tail_eq (a3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (dcol (m ((c : Thread nD τ).loc main_arg1))) (m ((c : Thread nD τ).loc main_arg7))
  exact congrArg (fun t => shapeCast S100000 t shapeCasts_S100000x1_S100000) e

end Cert.KernelIdeal.HostValue

end
-- ==== Proof.LibGcnAlgebra.lean ====
/- Pure algebra over the extended reals (Mathlib's EReal) for one graph-convolution layer.

   A row of the layer's output is a sum over the 8192 columns of the adjacency row; the tiled
   computation splits the columns into four consecutive blocks of 2048, accumulates the four block
   sums from a zero accumulator, and multiplies by the row's scaling factor last, whereas the plain
   computation scales every summand before adding.  Multiplication of extended reals is commutative
   and associative without exception, but (x + y) * d = x * d + y * d can fail (for instance at
   x = ⊤, y = ⊥ with d < 0, or at d = ⊤ with summands of opposite sign); it does hold for every x, y
   when 0 ≤ d and d ≠ ⊤.  So the two computations agree with no finiteness assumption on the
   summands, as long as the row's scaling factor is a nonnegative finite extended real.

   The module also shows that the inverse square root x ^ (-1/2) of a positive extended real is
   such a factor, and evaluates the few float bit patterns the programs spell. -/
import Mathlib.Data.EReal.Operations
import Mathlib.Data.EReal.Inv
import Mathlib.Algebra.BigOperators.Fin
import Mathlib.Algebra.BigOperators.Group.Finset.Basic
import Mathlib.Logic.Equiv.Fin.Basic
import Mathlib.Analysis.SpecialFunctions.Pow.Real
import Idealize.ShloMosaic.PureOps.Ideal

noncomputable section

namespace Cert.GcnAlgebra

open Idealize.ShloMosaic

/-- block kb's column jj as a column of the whole row -/
def col (kb : Fin 4) (jj : Fin 2048) : Fin 8192 := ⟨kb.val * 2048 + jj.val, by omega⟩

/-- A finite sum of extended reals times a nonnegative finite factor is the sum of the products:
    induction on the index set, each step the two-term law that holds for such a factor. -/
theorem sum_mul_of_nonneg_ne_top {ι : Type*} (s : Finset ι) (f : ι → EReal) (d : EReal) (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha,
      EReal.right_distrib_of_nonneg_of_ne_top h0 ht, ih]

/-- The sum over all 8192 columns is the sum over the four blocks of the sums inside each block:
    (kb, jj) ↦ kb * 2048 + jj is a bijection from pairs onto the columns. -/
theorem sum_blocks (f : Fin 8192 → EReal) : ∑ j : Fin 8192, f j = ∑ kb : Fin 4, ∑ jj : Fin 2048, f (col kb jj) := by
  rw [← Fintype.sum_prod_type' (fun kb jj => f (col kb jj))]
  rw [← Equiv.sum_comp (finProdFinEquiv : Fin 4 × Fin 2048 ≃ Fin (4 * 2048)) f]
  refine Finset.sum_congr rfl ?_
  rintro ⟨kb, jj⟩ _
  congr 1
  apply Fin.ext
  simp [col, finProdFinEquiv]
  omega

/-- The tiled entry equals the plain entry.  The right side is split into the four blocks; on the
    left the final factor is distributed over the three binary sums and then over each block's sum
    (both steps need only that the factor is nonnegative and finite); the summands then agree by
    commutativity and associativity of the product. -/
theorem gcn_entry (a l dj : Fin 8192 → EReal) (di : EReal) (h0 : 0 ≤ di) (ht : di ≠ ⊤) :
    ((((0 + ∑ jj : Fin 2048, a (col 0 jj) * (l (col 0 jj) * dj (col 0 jj)))
        + ∑ jj : Fin 2048, a (col 1 jj) * (l (col 1 jj) * dj (col 1 jj)))
        + ∑ jj : Fin 2048, a (col 2 jj) * (l (col 2 jj) * dj (col 2 jj)))
        + ∑ jj : Fin 2048, a (col 3 jj) * (l (col 3 jj) * dj (col 3 jj))) * di
      = ∑ j : Fin 8192, ((di * a j) * dj j) * l j := by
  have term : ∀ j : Fin 8192, a j * (l j * dj j) * di = ((di * a j) * dj j) * l j := by
    intro j
    rw [mul_comm (l j) (dj j), ← mul_assoc, mul_comm (a j * dj j * l j) di, ← mul_assoc, ← mul_assoc]
  rw [sum_blocks, Fin.sum_univ_four, zero_add,
    EReal.right_distrib_of_nonneg_of_ne_top h0 ht, EReal.right_distrib_of_nonneg_of_ne_top h0 ht,
    EReal.right_distrib_of_nonneg_of_ne_top h0 ht,
    sum_mul_of_nonneg_ne_top _ _ di h0 ht, sum_mul_of_nonneg_ne_top _ _ di h0 ht,
    sum_mul_of_nonneg_ne_top _ _ di h0 ht, sum_mul_of_nonneg_ne_top _ _ di h0 ht]
  simp only [term]

/-- the inverse square root of a positive degree is a nonnegative finite extended real: at a
    positive real it is a real power, which is a nonnegative real; at ⊤ it is 0. -/
theorem pow_neg_half (x : EReal) (hx : 0 < x) :
    0 ≤ Ideal.pow x (((-(1/2) : ℝ)) : EReal) ∧ Ideal.pow x (((-(1/2) : ℝ)) : EReal) ≠ ⊤ := by
  induction x using EReal.rec with
  | bot => exact absurd hx (not_lt_bot)
  | coe r =>
    have hr : 0 ≤ r := by exact_mod_cast hx.le
    rw [Ideal.pow_coe_coe]
    exact ⟨by exact_mod_cast Real.rpow_nonneg hr _, EReal.coe_ne_top _⟩
  | top =>
    have h1 : ¬ (0 : EReal) < (((-(1/2) : ℝ)) : EReal) := by
      rw [not_lt]; exact_mod_cast (by norm_num : (-(1/2) : ℝ) ≤ 0)
    have h2 : (((-(1/2) : ℝ)) : EReal) ≠ 0 := by
      exact_mod_cast (by norm_num : (-(1/2) : ℝ) ≠ 0)
    rw [Ideal.pow_top, if_neg h1, if_neg h2]
    exact ⟨le_rfl, EReal.zero_ne_top⟩

/-- the float literals the programs spell, as extended reals -/
theorem ofBits_f32_zero : Ideal.ofBits .f32 0x00000000#32 = 0 := by
  simp [Ideal.ofBits, Ideal.ieee]

theorem ofBits_f32_one : Ideal.ofBits .f32 0x3F800000#32 = 1 := by
  simp [Ideal.ofBits, Ideal.ieee, -EReal.coe_mul]; norm_num

theorem ofBits_bf16_zero : Ideal.ofBits .bf16 0x0000#16 = 0 := by
  simp [Ideal.ofBits, Ideal.ieee]

theorem ofBits_bf16_one : Ideal.ofBits .bf16 0x3F80#16 = 1 := by
  simp [Ideal.ofBits, Ideal.ieee, -EReal.coe_mul]; norm_num

theorem ofBits_f32_neg_half : Ideal.ofBits .f32 0xBF000000#32 = (((-(1/2) : ℝ)) : EReal) := by
  simp [Ideal.ofBits, Ideal.ieee, -EReal.coe_mul]; norm_num

end Cert.GcnAlgebra

end
-- ==== Proof.LibGcnNetAlgebra.lean ====
/-
  The two spellings of the three-layer graph convolution network agree.

  One aggregation scaled per node (rows scaled, gathered, summed into the target rows, rows scaled again) has, at entry
  (n, k), the value (∑ over edges e into n of h (src e, k) * δ (src e)) * δ n; scaled per edge it has the value
  ∑ over edges e into n of h (src e, k) * (δ (src e) * δ n). A product of extended reals is commutative and associative
  without exception, and a nonnegative finite factor distributes over any finite sum of extended reals; so the two agree
  when every node factor is nonnegative and finite, with no finiteness assumption on h (conv). The networks are three
  such aggregations with the same maps in between (net_eq).
-/
import Mathlib.Data.EReal.Operations
import Mathlib.Data.EReal.Inv
import proofs.«107657_j27367531610530_2_alg».proof.Proof.LibGcnNet
import proofs.«107657_j27367531610530_2_alg».proof.Proof.LibGcnAlgebra

noncomputable section

open scoped BigOperators

namespace Cert.Net

open Idealize.ShloMosaic Idealize.ShloMosaic.ValueIdx Idealize.ShloMosaic.SegmentIdx Cert.LibDotGeneralPlain

/-- ONE AGGREGATION, SCALED PER NODE OR PER EDGE. `hd` says that on an edge whose scatter word is the row number `n`
    the clamp of the word the gather of the factors reads is `n` too. -/
theorem conv {N E K : ℕ} (hN : 0 < N)
    (wfG : GatherDims.WF ⟨2, ![N, K]⟩ ⟨2, ![E, 1]⟩ ⟨2, ![E, K]⟩ [1] [0] [] [0] [] 1 ![1, K])
    (wfS : ScatterDims.WF ⟨2, ![N, K]⟩ ⟨2, ![E, 1]⟩ ⟨2, ![E, K]⟩ [1] [0] [0] 1)
    (wfF : GatherDims.WF ⟨1, ![N]⟩ ⟨2, ![E, 1]⟩ ⟨1, ![E]⟩ [] [0] [] [0] [] 1 ![1])
    (z : FVec Ideal ⟨2, ![N, K]⟩ .f32) (hz : ∀ i, z i = 0) (sc dc tc : IVec ⟨2, ![E, 1]⟩ 32)
    (δ : FVec Ideal ⟨1, ![N]⟩ .f32)
    (hδ : ∀ n : Fin N, 0 ≤ δ (ix1 n) ∧ δ (ix1 n) ≠ ⊤)
    (hd : ∀ (e : Fin E) (n : Fin N), (tc (ix2 e 0)).toInt = (n.val : ℤ) → clampRow N hN (dc (ix2 e 0)) = n)
    (h : FVec Ideal ⟨2, ![N, K]⟩ .f32) :
    scaleRows (aggr wfG wfS z sc tc (scaleRows h (col δ))) (col δ) = aggrN wfG wfS wfF z sc dc tc δ h := by
  funext i
  obtain ⟨n, k, rfl⟩ : ∃ n k, i = ix2 n k := ⟨i 0, i 1, eq_ix2 i⟩
  rw [scaleRows_apply, col_apply]
  unfold aggr aggrN
  rw [scatterAddRows_apply, scatterAddRows_apply, hz, zero_add, zero_add,
    Cert.GcnAlgebra.sum_mul_of_nonneg_ne_top _ _ _ (hδ n).1 (hδ n).2]
  refine Finset.sum_congr rfl fun e _ => ?_
  by_cases hv : (tc (ix2 e 0)).toInt = (n.val : ℤ)
  · rw [if_pos hv, if_pos hv]
    show Host.gather (gatherRowsDims N E K wfG) (scaleRows h (col δ)) sc (ix2 e k) * δ (ix1 n)
      = Host.gather (gatherRowsDims N E K wfG) h sc (ix2 e k)
        * (Host.gather (gatherFlatDims N E wfF) δ sc (ix1 e) * Host.gather (gatherFlatDims N E wfF) δ dc (ix1 e))
    rw [gatherRows_apply hN, gatherRows_apply hN, scaleRows_apply, col_apply, gatherFlat_apply hN, gatherFlat_apply hN,
      hd e n hv, mul_assoc]
  · rw [if_neg hv, if_neg hv, zero_mul]

/-- THE TWO NETWORKS AGREE: three aggregations, innermost first. -/
theorem net_eq {N E A B : ℕ} (hN : 0 < N)
    (wfG : GatherDims.WF ⟨2, ![N, B]⟩ ⟨2, ![E, 1]⟩ ⟨2, ![E, B]⟩ [1] [0] [] [0] [] 1 ![1, B])
    (wfS : ScatterDims.WF ⟨2, ![N, B]⟩ ⟨2, ![E, 1]⟩ ⟨2, ![E, B]⟩ [1] [0] [0] 1)
    (wfG1 : GatherDims.WF ⟨2, ![N, 1]⟩ ⟨2, ![E, 1]⟩ ⟨2, ![E, 1]⟩ [1] [0] [] [0] [] 1 ![1, 1])
    (wfS1 : ScatterDims.WF ⟨2, ![N, 1]⟩ ⟨2, ![E, 1]⟩ ⟨2, ![E, 1]⟩ [1] [0] [0] 1)
    (wfF : GatherDims.WF ⟨1, ![N]⟩ ⟨2, ![E, 1]⟩ ⟨1, ![E]⟩ [] [0] [] [0] [] 1 ![1])
    (z : FVec Ideal ⟨2, ![N, B]⟩ .f32) (hz : ∀ i, z i = 0)
    (z1 : FVec Ideal ⟨2, ![N, 1]⟩ .f32) (hz1 : ∀ i, z1 i = 0)
    (x : FVec Ideal ⟨2, ![N, A]⟩ .f32) (W1 : FVec Ideal ⟨2, ![A, B]⟩ .f32) (b1 : FVec Ideal ⟨1, ![B]⟩ .f32)
    (W2 : FVec Ideal ⟨2, ![B, B]⟩ .f32) (b2 : FVec Ideal ⟨1, ![B]⟩ .f32) (W3 : FVec Ideal ⟨2, ![B, 1]⟩ .f32)
    (b3 : FVec Ideal ⟨1, ![1]⟩ .f32) (δ : FVec Ideal ⟨1, ![N]⟩ .f32) (sc dc tc : IVec ⟨2, ![E, 1]⟩ 32)
    (hδ : ∀ n : Fin N, 0 ≤ δ (ix1 n) ∧ δ (ix1 n) ≠ ⊤)
    (hd : ∀ (e : Fin E) (n : Fin N), (tc (ix2 e 0)).toInt = (n.val : ℤ) → clampRow N hN (dc (ix2 e 0)) = n) :
    kernelNet wfG wfS wfG1 wfS1 z z1 x W1 b1 W2 b2 W3 b3 (col δ) sc tc
      = refNet wfG wfS wfG1 wfS1 wfF z z1 x W1 b1 W2 b2 W3 b3 δ sc dc tc := by
  unfold kernelNet refNet layer lin act
  rw [conv hN wfG wfS wfF z hz sc dc tc δ hδ hd (matProd x W1),
    conv hN wfG wfS wfF z hz sc dc tc δ hδ hd,
    conv hN wfG1 wfS1 wfF z1 hz1 sc dc tc δ hδ hd]

end Cert.Net

end
-- ==== Proof.LibGcnConv.lean ====
/-
  One normalised graph-convolution aggregation, written two ways, over extended reals.

  A table `h : [N, K]` of node features, a vector `δ : [N]` of node factors, and E edges given by three
  columns of signed words: a source column (read clamped, as a gather reads it), a target column read
  as a gather reads it (clamped) and the same target column read as a scatter reads it (not clamped:
  a word that is no row number adds nothing).
    * scaled per NODE: the rows of `h` are first multiplied by their node's factor, the rows the source
      column names are gathered, summed into the rows the target column names, and each resulting row is
      multiplied by the factor of its node;
    * scaled per EDGE: the rows of `h` the source column names are gathered, row `e` is multiplied by
      the product of the factors of edge `e`'s two ends, and the rows are summed into the target rows.
  Entry `(n, k)` is, the first way, `(∑ over edges e into n of h (src e, k) * δ (src e)) * δ n` and, the
  second way, `∑ over edges e into n of h (src e, k) * (δ (src e) * δ n)`. A product of extended reals is
  commutative and associative without exception, and a NONNEGATIVE FINITE factor distributes over any
  finite sum of extended reals, so the two agree whenever every node factor is nonnegative and finite:
  no finiteness of `h` is needed (`conv_eq`).

  The module also proves the two side facts a program that computes `δ` and its index columns needs:
  the index normalisation applied before a gather (a negative word gets `N` added) leaves a word that
  already is a row number alone, so its clamp is that row (`norm_col_clamp`); and the factor
  `δ = where (deg > 0, rsqrt (max (deg, ε)), 0)` with `ε` the float 1e-12 is a nonnegative finite extended real
  whatever `deg` is (`dis_nonneg_finite`).

  Generic in the extents `N`, `E`, `K`.
-/
import Idealize.ShloMosaic.Lib.ValueIdx
import Idealize.ShloMosaic.PureOps.Ideal.Laws
import Mathlib.Data.EReal.Operations
import Mathlib.Data.EReal.Inv
import proofs.«107657_j27367531610530_2_alg».proof.Proof.LibSegment
import proofs.«107657_j27367531610530_2_alg».proof.Proof.LibHostBroadcast
import proofs.«107657_j27367531610530_2_alg».proof.Proof.LibGcnAlgebra

noncomputable section

open scoped BigOperators

namespace Cert.LibGcnConv

open Idealize.ShloMosaic Idealize.ShloMosaic.ValueIdx Idealize.ShloMosaic.SegmentIdx

/-- A vector `[a]` kept as a column `[a, 1]` and spread over `b` columns reads its entry `p` at `(p, c)`. -/
theorem col_spread_apply {α : Type} {a b : ℕ}
    (b1 : (⟨1, ![a]⟩ : Shape).BroadcastsInDim ⟨2, ![a, 1]⟩ (![0] : Fin 1 → Fin 2))
    (b2 : (⟨2, ![a, 1]⟩ : Shape).BroadcastsInDim ⟨2, ![a, b]⟩ (![0, 1] : Fin 2 → Fin 2))
    (x : (⟨1, ![a]⟩ : Shape).Idx → α) (p : Fin a) (c : Fin b) :
    broadcastInDim ⟨2, ![a, b]⟩ ![0, 1] b2 (broadcastInDim ⟨2, ![a, 1]⟩ ![0] b1 x) (ix2 p c) = x (ix1 p) := by
  rw [Cert.LibHostBroadcast.bcast_a1_ab_apply (![0, 1] : Fin 2 → Fin 2) rfl b2 _ p c,
    Cert.LibHostBroadcast.bcast_a_a1_apply (![0] : Fin 1 → Fin 2) rfl b1 x p (0 : Fin 1)]

/-- THE TWO AGGREGATIONS AGREE. Left: scaled per node; right: scaled per edge. `sc` is the source column, `dc` the
    target column as the reference's gather of `δ` reads it, `tc` the target column as the scatters read it; `hd` says
    that on an edge whose scatter word is the row number `n`, the gather word's clamp is `n` too. -/
theorem conv_eq {N E K : ℕ} (hN : 0 < N) {φ : FTy}
    (wfG : GatherDims.WF ⟨2, ![N, K]⟩ ⟨2, ![E, 1]⟩ ⟨2, ![E, K]⟩ [1] [0] [] [0] [] 1 ![1, K])
    (wfF : GatherDims.WF ⟨1, ![N]⟩ ⟨2, ![E, 1]⟩ ⟨1, ![E]⟩ [] [0] [] [0] [] 1 ![1])
    (wfS : ScatterDims.WF ⟨2, ![N, K]⟩ ⟨2, ![E, 1]⟩ ⟨2, ![E, K]⟩ [1] [0] [0] 1)
    (b1 : (⟨1, ![N]⟩ : Shape).BroadcastsInDim ⟨2, ![N, 1]⟩ (![0] : Fin 1 → Fin 2))
    (b2 : (⟨2, ![N, 1]⟩ : Shape).BroadcastsInDim ⟨2, ![N, K]⟩ (![0, 1] : Fin 2 → Fin 2))
    (e1 : (⟨1, ![E]⟩ : Shape).BroadcastsInDim ⟨2, ![E, 1]⟩ (![0] : Fin 1 → Fin 2))
    (e2 : (⟨2, ![E, 1]⟩ : Shape).BroadcastsInDim ⟨2, ![E, K]⟩ (![0, 1] : Fin 2 → Fin 2))
    (h z : FVec Ideal ⟨2, ![N, K]⟩ φ) (δ : FVec Ideal ⟨1, ![N]⟩ φ) (sc dc tc : IVec ⟨2, ![E, 1]⟩ 32)
    (hδ : ∀ n : Fin N, 0 ≤ δ (ix1 n) ∧ δ (ix1 n) ≠ ⊤) (hz : ∀ i, z i = 0)
    (hd : ∀ (e : Fin E) (n : Fin N), (tc (ix2 e 0)).toInt = (n.val : ℤ) → clampRow N hN (dc (ix2 e 0)) = n) :
    mulf (Host.scatterAdd (F := Ideal) (scatterRowsDims N E K wfS) z tc
            (Host.gather (gatherRowsDims N E K wfG)
              (mulf h (broadcastInDim ⟨2, ![N, K]⟩ ![0, 1] b2 (broadcastInDim ⟨2, ![N, 1]⟩ ![0] b1 δ))) sc))
         (broadcastInDim ⟨2, ![N, K]⟩ ![0, 1] b2 (broadcastInDim ⟨2, ![N, 1]⟩ ![0] b1 δ))
      = Host.scatterAdd (F := Ideal) (scatterRowsDims N E K wfS) z tc
          (mulf (Host.gather (gatherRowsDims N E K wfG) h sc)
                (broadcastInDim ⟨2, ![E, K]⟩ ![0, 1] e2 (broadcastInDim ⟨2, ![E, 1]⟩ ![0] e1
                   (mulf (Host.gather (gatherFlatDims N E wfF) δ sc) (Host.gather (gatherFlatDims N E wfF) δ dc))))) := by
  funext i
  obtain ⟨n, k, rfl⟩ : ∃ n k, i = ix2 n k := ⟨i 0, i 1, eq_ix2 i⟩
  rw [mulf_apply, scatterAddRows_apply, scatterAddRows_apply, col_spread_apply b1 b2 δ n k, hz, zero_add, zero_add,
    Cert.GcnAlgebra.sum_mul_of_nonneg_ne_top _ _ _ (hδ n).1 (hδ n).2]
  refine Finset.sum_congr rfl fun e _ => ?_
  by_cases hv : (tc (ix2 e 0)).toInt = (n.val : ℤ)
  · rw [if_pos hv, if_pos hv, gatherRows_apply hN, mulf_apply, mulf_apply, gatherRows_apply hN,
      col_spread_apply b1 b2 δ _ k, col_spread_apply e1 e2 _ e k, mulf_apply, gatherFlat_apply hN, gatherFlat_apply hN,
      hd e n hv, mul_assoc]
  · rw [if_neg hv, if_neg hv, zero_mul]

/-- THE INDEX NORMALISATION LEAVES A ROW NUMBER ALONE. Before a gather every word of the column `d` that is negative gets
    `N` added. A word that, read signed, is the row number `n` is not negative, so the normalised column has the same
    word there, and its clamp into `[0, N - 1]` is `n`. -/
theorem norm_col_clamp {N E : ℕ} (hN : 0 < N)
    (e1 : (⟨1, ![E]⟩ : Shape).BroadcastsInDim ⟨2, ![E, 1]⟩ (![0] : Fin 1 → Fin 2))
    (bz : (⟨0, ![]⟩ : Shape).BroadcastsInDim ⟨1, ![E]⟩ (![] : Fin 0 → Fin 1)) (d : IVec ⟨1, ![E]⟩ 32) (e : Fin E) (n : Fin N)
    (h : (broadcastInDim ⟨2, ![E, 1]⟩ ![0] e1 d (ix2 e 0)).toInt = (n.val : ℤ)) :
    clampRow N hN (broadcastInDim ⟨2, ![E, 1]⟩ ![0] e1
        (select (cmpi .slt d (broadcastInDim ⟨1, ![E]⟩ ![] bz (constantI ⟨0, ![]⟩ 32 0#32)))
                (addi d (broadcastInDim ⟨1, ![E]⟩ ![] bz (constantI ⟨0, ![]⟩ 32 (BitVec.ofNat 32 N)))) d) (ix2 e 0)) = n := by
  rw [Cert.LibHostBroadcast.bcast_a_a1_apply (![0] : Fin 1 → Fin 2) rfl e1 _ e (0 : Fin 1)] at h ⊢
  apply clampRow_of_eq
  rw [select_apply]
  have hc : cmpi .slt d (broadcastInDim ⟨1, ![E]⟩ ![] bz (constantI ⟨0, ![]⟩ 32 0#32)) (ix1 e) = 0#1 := by
    show IntOp.cmpi .slt (d (ix1 e)) (broadcastInDim ⟨1, ![E]⟩ ![] bz (constantI ⟨0, ![]⟩ 32 0#32) (ix1 e)) = 0#1
    rw [Cert.LibHostBroadcast.bcast_scalar_apply]
    show BitVec.ofBool ((d (ix1 e)).slt 0#32) = 0#1
    have hlt : (d (ix1 e)).slt 0#32 = false := by simp [BitVec.slt, h]
    rw [hlt]
    rfl
  rw [hc, select_zero]
  exact h

/-- The float 1e-12 (the word 0x2B8CBCCC) is the positive real 9223372 · 2⁻⁶³. -/
theorem eps_eq : Ideal.ofBits .f32 0x2B8CBCCC#32 = (((9223372 : ℝ) * (2 : ℝ) ^ (-63 : ℤ) : ℝ) : EReal) := by
  simp [Ideal.ofBits, Ideal.ieee, -EReal.coe_mul]

/-- The reciprocal square root of an extended real that is at least a positive real is a nonnegative finite extended
    real: at `⊤` it is `0`, at a positive real `x` it is the real `(√x)⁻¹ ≥ 0`. -/
theorem rsqrt_nonneg_finite (m : EReal) (hm : 0 < m) : 0 ≤ Ideal.rsqrt m ∧ Ideal.rsqrt m ≠ ⊤ := by
  induction m using EReal.rec with
  | bot => exact absurd hm not_lt_bot
  | top => rw [Ideal.rsqrt_top]; exact ⟨le_rfl, EReal.zero_ne_top⟩
  | coe x =>
    have hx : 0 < x := by exact_mod_cast hm
    rw [Ideal.rsqrt_coe, if_neg (not_lt.mpr hx.le), if_neg hx.ne']
    exact ⟨by exact_mod_cast inv_nonneg.mpr (Real.sqrt_nonneg x), EReal.coe_ne_top _⟩

/-- THE NODE FACTOR IS A NONNEGATIVE FINITE EXTENDED REAL. `δ = where (deg > 0, rsqrt (max (deg, ε)), 0)` with `ε` the float
    1e-12: whichever branch the comparison takes, the value is `0` or the reciprocal square root of `max (deg n) ε ≥ ε > 0`. -/
theorem dis_nonneg_finite {N : ℕ} (bz : (⟨0, ![]⟩ : Shape).BroadcastsInDim ⟨1, ![N]⟩ (![] : Fin 0 → Fin 1))
    (deg : FVec Ideal ⟨1, ![N]⟩ .f32) (n : Fin N) :
    0 ≤ select (cmpf (F := Ideal) .ogt deg (broadcastInDim ⟨1, ![N]⟩ ![] bz (constant (F := Ideal) ⟨0, ![]⟩ .f32 0x00000000#32)))
               (Host.rsqrt (F := Ideal) (maximumf deg (broadcastInDim ⟨1, ![N]⟩ ![] bz (constant (F := Ideal) ⟨0, ![]⟩ .f32 0x2B8CBCCC#32))))
               (broadcastInDim ⟨1, ![N]⟩ ![] bz (id (constant (F := Ideal) ⟨0, ![]⟩ .f32 0x00000000#32))) (ix1 n)
    ∧ select (cmpf (F := Ideal) .ogt deg (broadcastInDim ⟨1, ![N]⟩ ![] bz (constant (F := Ideal) ⟨0, ![]⟩ .f32 0x00000000#32)))
               (Host.rsqrt (F := Ideal) (maximumf deg (broadcastInDim ⟨1, ![N]⟩ ![] bz (constant (F := Ideal) ⟨0, ![]⟩ .f32 0x2B8CBCCC#32))))
               (broadcastInDim ⟨1, ![N]⟩ ![] bz (id (constant (F := Ideal) ⟨0, ![]⟩ .f32 0x00000000#32))) (ix1 n) ≠ ⊤ := by
  rw [select_apply]
  have hb : broadcastInDim ⟨1, ![N]⟩ ![] bz (id (constant (F := Ideal) ⟨0, ![]⟩ .f32 0x00000000#32)) (ix1 n) = 0 := by
    rw [Cert.LibHostBroadcast.bcast_scalar_apply]
    exact Cert.GcnAlgebra.ofBits_f32_zero
  have ha : Host.rsqrt (F := Ideal) (maximumf deg (broadcastInDim ⟨1, ![N]⟩ ![] bz (constant (F := Ideal) ⟨0, ![]⟩ .f32 0x2B8CBCCC#32))) (ix1 n)
      = Ideal.rsqrt (max (deg (ix1 n)) (Ideal.ofBits .f32 0x2B8CBCCC#32)) := by
    show Ideal.rsqrt (max (deg (ix1 n)) (broadcastInDim ⟨1, ![N]⟩ ![] bz (constant (F := Ideal) ⟨0, ![]⟩ .f32 0x2B8CBCCC#32) (ix1 n))) = _
    rw [Cert.LibHostBroadcast.bcast_scalar_apply]
    rfl
  have hpos : (0 : EReal) < max (deg (ix1 n)) (Ideal.ofBits .f32 0x2B8CBCCC#32) := by
    refine lt_of_lt_of_le ?_ (le_max_right _ _)
    rw [eps_eq]
    exact_mod_cast (by positivity : (0 : ℝ) < (9223372 : ℝ) * (2 : ℝ) ^ (-63 : ℤ))
  rw [hb, ha]
  unfold Scalar.select
  split
  · exact rsqrt_nonneg_finite _ hpos
  · exact ⟨le_rfl, EReal.zero_ne_top⟩

end Cert.LibGcnConv

end
-- ==== Proof.RefValue.lean ====
/-
  The reference program's result as the three-layer network.

  The reference computes the node factors δ (the inverse square root of the in-degree where it is positive, else zero),
  the edge factor δ (src e) * δ (dst e), and three times: a matrix product, a gather of the rows the source column
  names, each row scaled by its edge's factor, a scatter-add into the rows the target column names, the bias added
  (and, between layers, negative entries cut to zero). Stage by stage this is the network with the normalisation per
  edge. A node factor is zero or the inverse square root of a positive degree, so it is nonnegative and finite, and the
  network with the normalisation per edge is the network with the normalisation per node.
-/
import proofs.«107657_j27367531610530_2_alg».proof.Proof.RefRead
import proofs.«107657_j27367531610530_2_alg».proof.Proof.LibGcnNetAlgebra
import proofs.«107657_j27367531610530_2_alg».proof.Proof.LibGcnConv
import proofs.«107657_j27367531610530_2_alg».proof.Proof.LibHostBroadcast
import proofs.«107657_j27367531610530_2_alg».proof.Proof.LibDotGeneralPlain

noncomputable section

open scoped BigOperators

namespace Cert.RefValue

open Cert.ReferenceIdeal Cert.ReferenceIdeal.Gen Cert.ReferenceIdeal.ReadP Idealize.ShloMosaic Idealize.ShloMosaic.ValueIdx
  Idealize.ShloMosaic.SegmentIdx Cert.Net Cert.LibDotGeneralPlain Cert.LibHostBroadcast

/-! ## The dimension records' side conditions, by name -/

theorem wfG : GatherDims.WF ⟨2, ![100000, 32]⟩ ⟨2, ![3300000, 1]⟩ ⟨2, ![3300000, 32]⟩ [1] [0] [] [0] [] 1 ![1, 32] :=
  Cert.ReferenceIdeal.gather_S100000x32_S3300000x1_S3300000x32_1_0_n_n_0_1_132.wf
theorem wfS : ScatterDims.WF ⟨2, ![100000, 32]⟩ ⟨2, ![3300000, 1]⟩ ⟨2, ![3300000, 32]⟩ [1] [0] [0] 1 :=
  Cert.ReferenceIdeal.scatter_S100000x32_S3300000x1_S3300000x32_1_0_0_1.wf
theorem wfG1 : GatherDims.WF ⟨2, ![100000, 1]⟩ ⟨2, ![3300000, 1]⟩ ⟨2, ![3300000, 1]⟩ [1] [0] [] [0] [] 1 ![1, 1] :=
  Cert.ReferenceIdeal.gather_S100000x1_S3300000x1_S3300000x1_1_0_n_n_0_1_11.wf
theorem wfS1 : ScatterDims.WF ⟨2, ![100000, 1]⟩ ⟨2, ![3300000, 1]⟩ ⟨2, ![3300000, 1]⟩ [1] [0] [0] 1 :=
  Cert.ReferenceIdeal.scatter_S100000x1_S3300000x1_S3300000x1_1_0_0_1.wf
theorem wfF : GatherDims.WF ⟨1, ![100000]⟩ ⟨2, ![3300000, 1]⟩ ⟨1, ![3300000]⟩ [] [0] [] [0] [] 1 ![1] :=
  Cert.ReferenceIdeal.gather_S100000_S3300000x1_S3300000_n_0_n_n_0_1_1.wf

theorem hN : 0 < 100000 := by omega

/-- The printed records are the generic ones. -/
theorem gatherRows_rec : Cert.ReferenceIdeal.gather_S100000x32_S3300000x1_S3300000x32_1_0_n_n_0_1_132
    = gatherRowsDims 100000 3300000 32 wfG := rfl
theorem scatterRows_rec : Cert.ReferenceIdeal.scatter_S100000x32_S3300000x1_S3300000x32_1_0_0_1
    = scatterRowsDims 100000 3300000 32 wfS := rfl
theorem gatherRows1_rec : Cert.ReferenceIdeal.gather_S100000x1_S3300000x1_S3300000x1_1_0_n_n_0_1_11
    = gatherRowsDims 100000 3300000 1 wfG1 := rfl
theorem scatterRows1_rec : Cert.ReferenceIdeal.scatter_S100000x1_S3300000x1_S3300000x1_1_0_0_1
    = scatterRowsDims 100000 3300000 1 wfS1 := rfl
theorem gatherFlat_rec : Cert.ReferenceIdeal.gather_S100000_S3300000x1_S3300000_n_0_n_n_0_1_1
    = gatherFlatDims 100000 3300000 wfF := rfl

/-! ## Generic stages -/

section Stages

variable (x1 : (⟨S2x3200000, .i32⟩ : BufTy).Contents (Elt Ideal))

/-- The edge factor at edge e: the factor of its source times the factor of its target. -/
theorem edge_factor_apply (e : Fin 3300000) :
    val_main_v29 (F := Ideal) x1 (ix1 e)
      = Host.gather (gatherFlatDims 100000 3300000 wfF) (val_main_v14 (F := Ideal) x1) (val_main_v20 (F := Ideal) x1) (ix1 e)
        * Host.gather (gatherFlatDims 100000 3300000 wfF) (val_main_v14 (F := Ideal) x1) (val_main_v27 (F := Ideal) x1) (ix1 e) := by
  unfold val_main_v29 val_main_v21 val_main_v28
  rw [mulf_apply, gatherFlat_rec]

/-- One aggregation of the reference over 32 columns: the gathered rows times the edge factor (kept as a column and
    spread over the columns), summed into the target rows. -/
theorem aggr_stage (z t : FVec Ideal ⟨2, ![100000, 32]⟩ .f32) :
    Host.scatterAdd (F := Ideal) (scatterRowsDims 100000 3300000 32 wfS) z (val_main_v9 (F := Ideal) x1)
        (mulf (Host.gather (gatherRowsDims 100000 3300000 32 wfG) t (val_main_v20 (F := Ideal) x1))
          (broadcastInDim ⟨2, ![3300000, 32]⟩ ![0, 1] bcast_S3300000x1_S3300000x32_0_1
            (broadcastInDim ⟨2, ![3300000, 1]⟩ ![0] bcast_S3300000_S3300000x1_0 (val_main_v29 (F := Ideal) x1))))
      = aggrN wfG wfS wfF z (val_main_v20 (F := Ideal) x1) (val_main_v27 (F := Ideal) x1) (val_main_v9 (F := Ideal) x1)
          (val_main_v14 (F := Ideal) x1) t := by
  unfold aggrN
  refine congrArg (Host.scatterAdd (F := Ideal) (scatterRowsDims 100000 3300000 32 wfS) z (val_main_v9 (F := Ideal) x1)) ?_
  funext i
  obtain ⟨e, k, rfl⟩ : ∃ e k, i = ix2 e k := ⟨i 0, i 1, eq_ix2 i⟩
  rw [mulf_apply, Cert.LibGcnConv.col_spread_apply, edge_factor_apply]

/-- The last aggregation, over one column: the edge factor is kept as a column and not spread. -/
theorem aggr_stage1 (z t : FVec Ideal ⟨2, ![100000, 1]⟩ .f32) :
    Host.scatterAdd (F := Ideal) (scatterRowsDims 100000 3300000 1 wfS1) z (val_main_v9 (F := Ideal) x1)
        (mulf (Host.gather (gatherRowsDims 100000 3300000 1 wfG1) t (val_main_v20 (F := Ideal) x1))
          (broadcastInDim ⟨2, ![3300000, 1]⟩ ![0] bcast_S3300000_S3300000x1_0 (val_main_v29 (F := Ideal) x1)))
      = aggrN wfG1 wfS1 wfF z (val_main_v20 (F := Ideal) x1) (val_main_v27 (F := Ideal) x1) (val_main_v9 (F := Ideal) x1)
          (val_main_v14 (F := Ideal) x1) t := by
  unfold aggrN
  refine congrArg (Host.scatterAdd (F := Ideal) (scatterRowsDims 100000 3300000 1 wfS1) z (val_main_v9 (F := Ideal) x1)) ?_
  funext i
  obtain ⟨e, k, rfl⟩ : ∃ e k, i = ix2 e k := ⟨i 0, i 1, eq_ix2 i⟩
  rw [mulf_apply, bcast_a_a1_apply (![0] : Fin 1 → Fin 2) rfl, edge_factor_apply]

end Stages

/-- A bias vector placed as a row and spread over the rows, added: the bias added to every row. -/
theorem bias_stage {K : ℕ} (b1 : (⟨1, ![K]⟩ : Shape).BroadcastsInDim ⟨2, ![1, K]⟩ (![1] : Fin 1 → Fin 2))
    (b2 : (⟨2, ![1, K]⟩ : Shape).BroadcastsInDim ⟨2, ![100000, K]⟩ (![0, 1] : Fin 2 → Fin 2))
    (h : FVec Ideal ⟨2, ![100000, K]⟩ .f32) (b : FVec Ideal ⟨1, ![K]⟩ .f32) :
    addf h (broadcastInDim ⟨2, ![100000, K]⟩ ![0, 1] b2 (broadcastInDim ⟨2, ![1, K]⟩ ![1] b1 b)) = addRow h b := by
  funext i
  obtain ⟨p, q, rfl⟩ : ∃ p q, i = ix2 p q := ⟨i 0, i 1, eq_ix2 i⟩
  rw [addf_apply, bcast_1b_ab_apply (![0, 1] : Fin 2 → Fin 2) rfl, bcast_b_1b_apply (![1] : Fin 1 → Fin 2) rfl, addRow_apply]

/-- The maximum with a table of the float zero: negative entries cut to zero. -/
theorem relu_stage {K : ℕ} (bz : (⟨0, ![]⟩ : Shape).BroadcastsInDim ⟨2, ![100000, K]⟩ (![] : Fin 0 → Fin 2))
    (h : FVec Ideal ⟨2, ![100000, K]⟩ .f32) :
    maximumf h (broadcastInDim ⟨2, ![100000, K]⟩ ![] bz (constant (F := Ideal) ⟨0, ![]⟩ .f32 0x00000000#32)) = relu h := by
  funext i
  rw [maximumf_apply, bcast_scalar_apply, relu_apply]
  show max (h i) (Ideal.ofBits .f32 0x00000000#32) = max (h i) 0
  rw [Cert.GcnAlgebra.ofBits_f32_zero]

/-! ## The reference's stages -/

section Ref

variable (x0 : (⟨S100000x128, .f32⟩ : BufTy).Contents (Elt Ideal)) (x1 : (⟨S2x3200000, .i32⟩ : BufTy).Contents (Elt Ideal))
  (x2 : (⟨S128x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x1, .f32⟩ : BufTy).Contents (Elt Ideal)) (x7 : (⟨S1, .f32⟩ : BufTy).Contents (Elt Ideal))

/-- The zero tables the scatters accumulate onto. -/
theorem v41_zero (i : S100000x32.Idx) : val_main_v41 (F := Ideal) i = 0 := by
  unfold val_main_v41 val_main_cst_8
  rw [bcast_scalar_apply]
  exact Cert.GcnAlgebra.ofBits_f32_zero

theorem v76_zero (i : S100000x1.Idx) : val_main_v76 (F := Ideal) i = 0 := by
  unfold val_main_v76 val_main_cst_14
  rw [bcast_scalar_apply]
  exact Cert.GcnAlgebra.ofBits_f32_zero

theorem v59_eq : val_main_v59 (F := Ideal) = val_main_v41 (F := Ideal) := by
  unfold val_main_v59 val_main_cst_11 val_main_v41 val_main_cst_8
  rfl

/-- The source column is normalised once per use and the target column is spread once per use: the copies are the same
    functions of the edge list. -/
theorem v36_eq : val_main_v36 (F := Ideal) x1 = val_main_v20 (F := Ideal) x1 := by
  unfold val_main_v36 val_main_v35 val_main_v32 val_main_v34 val_main_v31 val_main_v33 val_main_c_6 val_main_c_7
    val_main_v20 val_main_v19 val_main_v16 val_main_v18 val_main_v15 val_main_v17 val_main_c val_main_c_3
  rfl

theorem v54_eq : val_main_v54 (F := Ideal) x1 = val_main_v20 (F := Ideal) x1 := by
  unfold val_main_v54 val_main_v53 val_main_v50 val_main_v52 val_main_v49 val_main_v51 val_main_c_9 val_main_c_10
    val_main_v20 val_main_v19 val_main_v16 val_main_v18 val_main_v15 val_main_v17 val_main_c val_main_c_3
  rfl

theorem v72_eq : val_main_v72 (F := Ideal) x1 = val_main_v20 (F := Ideal) x1 := by
  unfold val_main_v72 val_main_v71 val_main_v68 val_main_v70 val_main_v67 val_main_v69 val_main_c_12 val_main_c_13
    val_main_v20 val_main_v19 val_main_v16 val_main_v18 val_main_v15 val_main_v17 val_main_c val_main_c_3
  rfl

theorem v42_eq : val_main_v42 (F := Ideal) x1 = val_main_v9 (F := Ideal) x1 := by
  unfold val_main_v42 val_main_v9
  rfl

theorem v60_eq : val_main_v60 (F := Ideal) x1 = val_main_v9 (F := Ideal) x1 := by
  unfold val_main_v60 val_main_v9
  rfl

theorem v77_eq : val_main_v77 (F := Ideal) x1 = val_main_v9 (F := Ideal) x1 := by
  unfold val_main_v77 val_main_v9
  rfl

/-- The three matrix products. -/
theorem v30_eq : val_main_v30 (F := Ideal) x0 x2 = matProd (M := 100000) (K := 128) (N := 32) x0 x2 := by
  unfold val_main_v30
  exact dotGeneral_plain_eq _ rfl none .single x0 x2

theorem v48_eq : val_main_v48 (F := Ideal) x0 x1 x2 x3 x4
    = matProd (M := 100000) (K := 32) (N := 32) (val_main_v47 (F := Ideal) x0 x1 x2 x3) x4 := by
  unfold val_main_v48
  exact dotGeneral_plain_eq _ rfl none .single _ x4

theorem v66_eq : val_main_v66 (F := Ideal) x0 x1 x2 x3 x4 x5 x6
    = matProd (M := 100000) (K := 32) (N := 1) (val_main_v65 (F := Ideal) x0 x1 x2 x3 x4 x5) x6 := by
  unfold val_main_v66
  exact dotGeneral_plain_eq _ rfl none .single _ x6

/-- The three aggregations. -/
theorem v43_eq : val_main_v43 (F := Ideal) x0 x1 x2
    = aggrN wfG wfS wfF (val_main_v41 (F := Ideal)) (val_main_v20 (F := Ideal) x1) (val_main_v27 (F := Ideal) x1)
        (val_main_v9 (F := Ideal) x1) (val_main_v14 (F := Ideal) x1) (val_main_v30 (F := Ideal) x0 x2) := by
  unfold val_main_v43 val_main_v40 val_main_v37 val_main_v39 val_main_v38
  rw [scatterRows_rec, gatherRows_rec, v42_eq, v36_eq]
  exact aggr_stage x1 _ _

theorem v61_eq : val_main_v61 (F := Ideal) x0 x1 x2 x3 x4
    = aggrN wfG wfS wfF (val_main_v41 (F := Ideal)) (val_main_v20 (F := Ideal) x1) (val_main_v27 (F := Ideal) x1)
        (val_main_v9 (F := Ideal) x1) (val_main_v14 (F := Ideal) x1) (val_main_v48 (F := Ideal) x0 x1 x2 x3 x4) := by
  unfold val_main_v61 val_main_v58 val_main_v55 val_main_v57 val_main_v56
  rw [scatterRows_rec, gatherRows_rec, v60_eq, v54_eq, v59_eq]
  exact aggr_stage x1 _ _

theorem v78_eq : val_main_v78 (F := Ideal) x0 x1 x2 x3 x4 x5 x6
    = aggrN wfG1 wfS1 wfF (val_main_v76 (F := Ideal)) (val_main_v20 (F := Ideal) x1) (val_main_v27 (F := Ideal) x1)
        (val_main_v9 (F := Ideal) x1) (val_main_v14 (F := Ideal) x1) (val_main_v66 (F := Ideal) x0 x1 x2 x3 x4 x5 x6) := by
  unfold val_main_v78 val_main_v75 val_main_v73 val_main_v74
  rw [scatterRows1_rec, gatherRows1_rec, v77_eq, v72_eq]
  exact aggr_stage1 x1 _ _

/-- The bias adds and the cuts at zero. -/
theorem v47_eq : val_main_v47 (F := Ideal) x0 x1 x2 x3 = relu (addRow (val_main_v43 (F := Ideal) x0 x1 x2) x3) := by
  unfold val_main_v47 val_main_v46 val_main_call1_v0 val_main_call1_cst val_main_v45 val_main_v44
  rw [relu_stage bcast_S_S100000x32, bias_stage bcast_S32_S1x32_1 bcast_S1x32_S100000x32_0_1]

theorem v65_eq : val_main_v65 (F := Ideal) x0 x1 x2 x3 x4 x5
    = relu (addRow (val_main_v61 (F := Ideal) x0 x1 x2 x3 x4) x5) := by
  unfold val_main_v65 val_main_v64 val_main_call2_v0 val_main_call2_cst val_main_v63 val_main_v62
  rw [relu_stage bcast_S_S100000x32, bias_stage bcast_S32_S1x32_1 bcast_S1x32_S100000x32_0_1]

theorem v81_eq : val_main_v81 (F := Ideal) x0 x1 x2 x3 x4 x5 x6 x7
    = addRow (val_main_v78 (F := Ideal) x0 x1 x2 x3 x4 x5 x6) x7 := by
  unfold val_main_v81 val_main_v80 val_main_v79
  rw [bias_stage bcast_S1_S1x1_1 bcast_S1x1_S100000x1_0_1]

/-- THE REFERENCE IS THE NETWORK WITH THE NORMALISATION PER EDGE. -/
theorem ref_eq_refNet :
    val_main_v82 (F := Ideal) x0 x1 x2 x3 x4 x5 x6 x7
      = shapeCast _ (refNet (A := 128) wfG wfS wfG1 wfS1 wfF (val_main_v41 (F := Ideal)) (val_main_v76 (F := Ideal))
          x0 x2 x3 x4 x5 x6 x7 (val_main_v14 (F := Ideal) x1) (val_main_v20 (F := Ideal) x1) (val_main_v27 (F := Ideal) x1)
          (val_main_v9 (F := Ideal) x1)) shapeCasts_S100000x1_S100000 := by
  unfold val_main_v82 refNet
  rw [v81_eq, v78_eq, v66_eq, v65_eq, v61_eq, v48_eq, v47_eq, v43_eq, v30_eq]

/-! ## The node factors and the target column -/

/-- A node factor is zero or the inverse square root of a positive degree: nonnegative and finite. -/
theorem dinv_nonneg_finite (n : Fin 100000) :
    0 ≤ val_main_v14 (F := Ideal) x1 (ix1 n) ∧ val_main_v14 (F := Ideal) x1 (ix1 n) ≠ ⊤ := by
  have hb : val_main_call0_v1 (F := Ideal) (ix1 n) = 0 := by
    unfold val_main_call0_v1 val_main_call0_v0 val_main_cst_2
    rw [bcast_scalar_apply]
    exact Cert.GcnAlgebra.ofBits_f32_zero
  have h11 : val_main_v11 (F := Ideal) (ix1 n) = 0 := by
    unfold val_main_v11 val_main_cst_1
    rw [bcast_scalar_apply]
    exact Cert.GcnAlgebra.ofBits_f32_zero
  rw [val_main_v14_apply, val_main_v12_apply, val_main_v13_apply, hb, h11]
  generalize val_main_v10 (F := Ideal) x1 (ix1 n) = d
  change 0 ≤ Scalar.select (BitVec.ofBool (decide ((0 : EReal) < d))) (Ideal.rsqrt d) 0
    ∧ Scalar.select (BitVec.ofBool (decide ((0 : EReal) < d))) (Ideal.rsqrt d) 0 ≠ ⊤
  unfold Scalar.select
  split
  · rename_i h1
    have hpos : (0 : EReal) < d := by
      by_contra hn
      rw [decide_eq_false hn] at h1
      exact absurd h1 (by decide)
    exact Cert.LibGcnConv.rsqrt_nonneg_finite _ hpos
  · exact ⟨le_rfl, EReal.zero_ne_top⟩

/-- On an edge whose target word is the row number n, the normalised target word (a negative word gets the number of
    rows added) is the same word, and its clamp is n. -/
theorem target_clamp (e : Fin 3300000) (n : Fin 100000)
    (h : (val_main_v9 (F := Ideal) x1 (ix2 e 0)).toInt = (n.val : ℤ)) :
    clampRow 100000 hN (val_main_v27 (F := Ideal) x1 (ix2 e 0)) = n := by
  unfold val_main_v9 at h
  unfold val_main_v27 val_main_v26 val_main_v23 val_main_v25 val_main_v22 val_main_v24 val_main_c_4 val_main_c_5
  exact Cert.LibGcnConv.norm_col_clamp hN bcast_S3300000_S3300000x1_0 bcast_S_S3300000 (val_main_v6 (F := Ideal) x1) e n h

/-- THE REFERENCE IS THE NETWORK WITH THE NORMALISATION PER NODE. -/
theorem ref_eq :
    val_main_v82 (F := Ideal) x0 x1 x2 x3 x4 x5 x6 x7
      = shapeCast _ (kernelNet (A := 128) wfG wfS wfG1 wfS1 (val_main_v41 (F := Ideal)) (val_main_v76 (F := Ideal))
          x0 x2 x3 x4 x5 x6 x7 (col (val_main_v14 (F := Ideal) x1)) (val_main_v20 (F := Ideal) x1)
          (val_main_v9 (F := Ideal) x1)) shapeCasts_S100000x1_S100000 := by
  rw [ref_eq_refNet, net_eq hN wfG wfS wfG1 wfS1 wfF (val_main_v41 (F := Ideal)) v41_zero (val_main_v76 (F := Ideal)) v76_zero
    x0 x2 x3 x4 x5 x6 x7 (val_main_v14 (F := Ideal) x1) (val_main_v20 (F := Ideal) x1) (val_main_v27 (F := Ideal) x1)
    (val_main_v9 (F := Ideal) x1) (dinv_nonneg_finite x1) (target_clamp x1)]

end Ref

end Cert.RefValue

end
-- ==== Proof.Bridge.lean ====
/-
  The kernel program's columns and node factors are the reference's.

  Both programs make the two edge columns, the in-degrees and the node factors by the same host operations on the edge
  list, so the kernel program's source column, target column, node factors and zero tables are, as functions of the
  edge list, the stages the reference's reading names; the column of node factors the kernels read is the vector of node
  factors cast to a column. So the network the kernel program's run ends with and the network the reference's last
  stage equals (RefValue) are one term.
-/
import proofs.«107657_j27367531610530_2_alg».proof.Proof.HostValue
import proofs.«107657_j27367531610530_2_alg».proof.Proof.RefValue
import proofs.«107657_j27367531610530_2_alg».proof.Proof.LibColumns

set_option maxRecDepth 16384

noncomputable section

namespace Cert.Bridge

open Idealize.ShloMosaic Idealize.ShloMosaic.ValueIdx Cert.KernelIdeal Cert.KernelIdeal.Facts₀ Cert.KernelIdeal.Facts Cert.KernelIdeal.HostValue
open Cert.ReferenceIdeal.ReadP

theorem scol_eq (x1 : IVec S2x3200000 32) : scol x1 = val_main_v20 (F := Ideal) x1 := rfl
theorem tcol_eq (x1 : IVec S2x3200000 32) : tcol x1 = val_main_v9 (F := Ideal) x1 := rfl
theorem dinv_eq (x1 : IVec S2x3200000 32) : dinv x1 = val_main_v14 (F := Ideal) x1 := rfl
theorem z32_eq : z32 = val_main_v41 (F := Ideal) := rfl
theorem z1_eq : z1 = val_main_v76 (F := Ideal) := rfl

/-- The column of node factors is the vector of node factors, entry by entry. -/
theorem dcol_eq (x1 : IVec S2x3200000 32) : dcol x1 = Cert.Net.col (val_main_v14 (F := Ideal) x1) := by
  funext i
  obtain ⟨p, u, rfl⟩ : ∃ (p : Fin 100000) (u : Fin 1), i = ix2 p u := ⟨i 0, i 1, eq_ix2 i⟩
  rw [Cert.Net.col_apply, ← dinv_eq]
  exact Cert.Columns.shapeCast_a_a1_apply (dinv x1) shapeCasts_S100000_S100000x1 p u

/-- The network the reference's last stage equals is the network the kernel program's run ends with. -/
theorem result_eq (x0 : FVec Ideal S100000x128 .f32) (x1 : IVec S2x3200000 32) (x2 : FVec Ideal S128x32 .f32)
    (x3 : FVec Ideal S32 .f32) (x4 : FVec Ideal S32x32 .f32) (x5 : FVec Ideal S32 .f32) (x6 : FVec Ideal S32x1 .f32)
    (x7 : FVec Ideal S1 .f32) :
    shapeCast Cert.ReferenceIdeal.S100000
        (Cert.Net.kernelNet (A := 128) Cert.RefValue.wfG Cert.RefValue.wfS Cert.RefValue.wfG1 Cert.RefValue.wfS1
          (val_main_v41 (F := Ideal)) (val_main_v76 (F := Ideal)) x0 x2 x3 x4 x5 x6 x7
          (Cert.Net.col (val_main_v14 (F := Ideal) x1)) (val_main_v20 (F := Ideal) x1) (val_main_v9 (F := Ideal) x1))
        Cert.ReferenceIdeal.Facts₀.shapeCasts_S100000x1_S100000
      = shapeCast S100000
          (Cert.Net.kernelNet wfG wfS wfG1 wfS1 z32 z1 x0 x2 x3 x4 x5 x6 x7 (dcol x1) (scol x1) (tcol x1))
          shapeCasts_S100000x1_S100000 := by
  rw [dcol_eq, scol_eq, tcol_eq, z32_eq, z1_eq]

end Cert.Bridge

end
-- ==== Proof.lean ====
/-
  The certificate: a three-layer graph convolution network computed by three kernels and host gathers and scatters
  equals its reference over the extended reals.

  With `dinv` the inverse square root of a node's in-degree (zero at degree zero), the reference scales the row of
  every edge by `dinv (source) * dinv (target)` before summing the rows into their targets; the kernel program scales
  every node's row by `dinv` once before the rows are gathered and once more after they are summed. A product of
  extended reals is commutative and associative, and a nonnegative finite factor — `dinv` of the target node —
  distributes over a finite sum of extended reals whatever its terms, so the two agree at every layer with no
  finiteness asked of the features or the weights (LibGcnNetAlgebra). The kernel program's result is read off its run: each
  region's grid of ten row blocks leaves one whole-array function of its input arrays (Region0Value, Region1Value,
  Region2Value), the host stretches between them are read operation by operation (HostValue), and both programs make
  the node factors and the edge columns by the same operations (Bridge). The reference's result is its run read back
  stage by stage (RefValue). The three frames are the generated ones; the reference's is its run with the result
  dropped. No operation was rewritten by the idealization, so nothing is owed for it.
-/
import proofs.«107657_j27367531610530_2_alg».proof.Defs
import proofs.«107657_j27367531610530_2_alg».proof.Proof.Gen.Kernel
import proofs.«107657_j27367531610530_2_alg».proof.Proof.Gen.Kernel.Skeleton
import proofs.«107657_j27367531610530_2_alg».proof.Proof.Gen.Kernel.Launch
import proofs.«107657_j27367531610530_2_alg».proof.Proof.Gen.Kernel.Points
import proofs.«107657_j27367531610530_2_alg».proof.Proof.Gen.Kernel.Frame
import proofs.«107657_j27367531610530_2_alg».proof.Proof.Gen.KernelIdeal
import proofs.«107657_j27367531610530_2_alg».proof.Proof.Gen.KernelIdeal.Skeleton
import proofs.«107657_j27367531610530_2_alg».proof.Proof.Gen.KernelIdeal.Launch
import proofs.«107657_j27367531610530_2_alg».proof.Proof.Gen.KernelIdeal.Points
import proofs.«107657_j27367531610530_2_alg».proof.Proof.Gen.KernelIdeal.Frame
import proofs.«107657_j27367531610530_2_alg».proof.Proof.Gen.ReferenceIdeal
import proofs.«107657_j27367531610530_2_alg».proof.Proof.RefRun
import proofs.«107657_j27367531610530_2_alg».proof.Proof.RefRead
import proofs.«107657_j27367531610530_2_alg».proof.Proof.Gen.Pre_finite_inputs
import proofs.«107657_j27367531610530_2_alg».proof.Proof.KernelRun
import proofs.«107657_j27367531610530_2_alg».proof.Proof.HostValue
import proofs.«107657_j27367531610530_2_alg».proof.Proof.RefValue
import proofs.«107657_j27367531610530_2_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network of the arguments, the normalisation per node, as a vector: the kernel
    program by its run read boundary by boundary, the reference by its stages and the layer identity. -/
theorem algebraic : Cert.algebraic_KernelIdeal_ReferenceIdeal := by
  intro m ρ m' ρ' _ hagree
  refine ⟨fun c => shapeCast Cert.KernelIdeal.S100000
      (Cert.Net.kernelNet Cert.KernelIdeal.HostValue.wfG Cert.KernelIdeal.HostValue.wfS Cert.KernelIdeal.HostValue.wfG1
        Cert.KernelIdeal.HostValue.wfS1 Cert.KernelIdeal.HostValue.z32 Cert.KernelIdeal.HostValue.z1
        (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (Cert.KernelIdeal.HostValue.dcol (m ((c.tc : Thread Cert.KernelIdeal.nD Cert.KernelIdeal.τ).loc Cert.KernelIdeal.main_arg1))) (Cert.KernelIdeal.HostValue.scol (m ((c.tc : Thread Cert.KernelIdeal.nD Cert.KernelIdeal.τ).loc Cert.KernelIdeal.main_arg1)))
        (Cert.KernelIdeal.HostValue.tcol (m ((c.tc : Thread Cert.KernelIdeal.nD Cert.KernelIdeal.τ).loc Cert.KernelIdeal.main_arg1)))) Cert.KernelIdeal.Facts₀.shapeCasts_S100000x1_S100000, ?_, ?_⟩
  · exact (θ_run Cert.KernelIdeal.defs _ _).mono
      (fun _ h c => ⟨(h c).1.trans (Cert.KernelIdeal.HostValue.at_v53 m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v82_eq, Cert.RefValue.ref_eq, (hagree c).1, (hagree c).2.1, (hagree c).2.2.1,
      (hagree c).2.2.2.1, (hagree c).2.2.2.2.1, (hagree c).2.2.2.2.2.1, (hagree c).2.2.2.2.2.2.1, (hagree c).2.2.2.2.2.2.2]
    exact Cert.Bridge.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
